-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S850000x256 : Shape := ⟨2, ![850000, 256]⟩
abbrev S1x256 : Shape := ⟨2, ![1, 256]⟩
abbrev S256x128 : Shape := ⟨2, ![256, 128]⟩
abbrev S128 : Shape := ⟨1, ![128]⟩
abbrev S850000x128 : Shape := ⟨2, ![850000, 128]⟩
abbrev S1x128 : Shape := ⟨2, ![1, 128]⟩
abbrev S50000x64 : Shape := ⟨2, ![50000, 64]⟩

abbrev nBuf : Space → Nat
  | .hbm => 86
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .bf16⟩
  | .hbm, ⟨41, _⟩ => ⟨S850000x256, .f32⟩
  | .hbm, ⟨42, _⟩ => ⟨S_, .f32⟩
  | .hbm, ⟨43, _⟩ => ⟨S50000x256, .f32⟩
  | .hbm, ⟨44, _⟩ => ⟨S850000x1, .i32⟩
  | .hbm, ⟨45, _⟩ => ⟨S50000x256, .f32⟩
  | .hbm, ⟨46, _⟩ => ⟨S50000x1, .f32⟩
  | .hbm, ⟨47, _⟩ => ⟨S50000x256, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S_, .f32⟩
  | .hbm, ⟨57, _⟩ => ⟨S256x128, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S50000x128, .bf16⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x128, .bf16⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x256, .bf16⟩
  | .local _ .vmem, ⟨6, _⟩ => ⟨S5000x256, .bf16⟩
  | .local _ .vmem, ⟨7, _⟩ => ⟨S5000x256, .f32⟩
  | .local _ .vmem, ⟨8, _⟩ => ⟨S5000x256, .f32⟩
  | .local _ .vmem, ⟨9, _⟩ => ⟨S256x128, .f32⟩
  | .local _ .vmem, ⟨10, _⟩ => ⟨S5000x1, .f32⟩
  | .local _ .vmem, ⟨11, _⟩ => ⟨S5000x1, .f32⟩
  | .local _ .vmem, ⟨12, _⟩ => ⟨S5000x128, .bf16⟩
  | .local _ .vmem, ⟨13, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_c_6 : Ref sig .tc := ⟨.hbm, 55, rfl⟩
abbrev main_call2_v0 : Ref sig .tc := ⟨.hbm, 56, rfl⟩
abbrev main_v37 : Ref sig .tc := ⟨.hbm, 57, rfl⟩
abbrev main_c_7 : Ref sig .tc := ⟨.hbm, 58, rfl⟩
abbrev main_call3_v0 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call4_cst : Ref sig .tc := ⟨.hbm, 82, rfl⟩
abbrev main_call4_v0 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  pads_S256x64_S256x128_000_0640 : S256x64.Pads (![0, 0] : Fin 2 → Nat) ![0, 64] ![0, 0] S256x128
  h_S_ : 0 < S_.numel
  pads_S64_S128_0640 : S64.Pads (![0] : Fin 1 → Nat) ![64] ![0] S128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S50000x128_S50000x64_0_0 : S50000x128.Slices ![0, 0] S50000x64
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .bf16 = 32 ∨ (Rect.block (s := S50000x256) S5000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run, with its result named.

  @main of the kernel is fourteen segments: stretches of host operations and two kernel regions. The buffer contents at
  each segment boundary are a fold from the launch memory — a stretch applies its operations, a region replaces its
  windows' arrays by what its write-backs leave — and the last boundary's contents are `Gen.W14`. Every weakly fair
  execution terminates, nothing faulting, with every unscoped buffer at that last boundary's contents; read at the
  result buffer this names the result, and read at an argument it is the argument as launched.
-/
import proofs.«160101_j19774029431674_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's @main terminates, nothing faulting, with the result buffer at the
    last segment boundary's contents and the six argument arrays as launched. -/
theorem run_result : θ_run defs (onTc (τ := τ) (main (F := F))) ⟨m, fun _ => 0, ρ⟩ (fun r => ∀ c : Dev nD,
      r.2.mem ((c.tc : Thread nD τ).loc main_v58) = W14 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v58 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.RunValue

end
-- ==== Proof.KernelFold.lean ====
/-
  The idealized kernel's host arithmetic, read back through the boundaries between its segments.

  The program appends a self loop per node to the edge list: sources `src` and destinations `dst`, 850000 entries
  each. The degree of a node is the number of entries of `dst` equal to it (a scatter-add of ones into zeros), and
  `dinv` is 0 where the degree is 0 and the reciprocal square root of max(degree, 1) elsewhere. One layer gathers the
  rows `src` (negative entries wrapped by the row count) of a table, adds them up per destination, multiplies row `i`
  by `dinv i`, adds a bias row and clips at 0; the table is what a kernel region wrote. Layer 2 works on weights and
  bias padded with zero columns from 64 to 128 and the result keeps the first 64 columns.

  Each definition below is a stretch of those operations as one function of the arrays it reads; each theorem says
  that a buffer at a segment boundary holds that function of buffers at an earlier boundary.
-/
import proofs.«160101_j19774029431674_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable {F : FTy → Type} [FloatOps F]

/-! ## The stretches as functions -/

/-- Row `r` (0: sources, 1: destinations) of the edge list with the nodes' self loops appended. -/
def srcOf (E : (⟨S2x800000, .i32⟩ : BufTy).Contents (Elt F)) : (⟨S850000, .i32⟩ : BufTy).Contents (Elt F) :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

def dstOf (E : (⟨S2x800000, .i32⟩ : BufTy).Contents (Elt F)) : (⟨S850000, .i32⟩ : BufTy).Contents (Elt F) :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- The degree: one per entry of `dst` naming the node. -/
def degOf (D : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 D) (broadcastInDim S850000 ![] bcast_S_S850000 (constant S_ .f32 0x3F800000#32))

/-- 0 at degree 0, else the reciprocal square root of max(degree, 1). -/
def dinvOf (D : (⟨S850000, .i32⟩ : BufTy).Contents (Elt F)) : (⟨S50000, .f32⟩ : BufTy).Contents (Elt F) :=
  select (cmpf (F := F) .ogt (degOf D) (broadcastInDim S50000 ![] bcast_S_S50000 (constant S_ .f32 0x00000000#32)))
    (Host.rsqrt (maximumf (degOf D) (broadcastInDim S50000 ![] bcast_S_S50000 (constant S_ .f32 0x3F800000#32))))
    (broadcastInDim S50000 ![] bcast_S_S50000 (id (constant S_ .f32 0x00000000#32)))

/-- `dinv` as a column. -/
def colOf (d : (⟨S50000, .f32⟩ : BufTy).Contents (Elt F)) : (⟨S50000x1, .f32⟩ : BufTy).Contents (Elt F) :=
  broadcastInDim S50000x1 ![0] bcast_S50000_S50000x1_0 d

/-! ## The layers as functions -/

/-- Start indices for a row gather: negative entries wrapped by the row count, as a column. -/
def wrapOf (S : (⟨S850000, .i32⟩ : BufTy).Contents (Elt F)) : (⟨S850000x1, .i32⟩ : BufTy).Contents (Elt F) :=
  broadcastInDim S850000x1 ![0] bcast_S850000_S850000x1_0
    (select (cmpi .slt S (broadcastInDim S850000 ![] bcast_S_S850000 (constantI S_ 32 0#32)))
      (addi S (broadcastInDim S850000 ![] bcast_S_S850000 (constantI S_ 32 50000#32))) S)

/-- Layer 1 from the table `T` a region wrote: rows `src` of `T` summed per destination, row `i` times `d i`,
    plus the bias row, clipped at 0. -/
def layer1 (T : (⟨S50000x256, .bf16⟩ : BufTy).Contents (Elt F)) (S D : (⟨S850000, .i32⟩ : BufTy).Contents (Elt F))
    (d : (⟨S50000, .f32⟩ : BufTy).Contents (Elt F)) (b : (⟨S256, .f32⟩ : BufTy).Contents (Elt F)) :
    (⟨S50000x256, .f32⟩ : BufTy).Contents (Elt F) :=
  maximumf
    (addf
      (mulf
        (Host.scatterAdd scatter_S50000x256_S850000x1_S850000x256_1_0_0_1
          (broadcastInDim S50000x256 ![] bcast_S_S50000x256 (constant S_ .f32 0x00000000#32))
          (broadcastInDim S850000x1 ![0] bcast_S850000_S850000x1_0 D)
          (extf .f32 (Host.gather gather_S50000x256_S850000x1_S850000x256_1_0_n_n_0_1_1256 T (wrapOf S)) bitsLt_bf16_f32))
        (broadcastInDim S50000x256 ![0, 1] bcast_S50000x1_S50000x256_0_1 (broadcastInDim S50000x1 ![0] bcast_S50000_S50000x1_0 d)))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The layer-2 weights with 64 zero columns appended. -/
def padW (W : (⟨S256x64, .f32⟩ : BufTy).Contents (Elt F)) : (⟨S256x128, .f32⟩ : BufTy).Contents (Elt F) :=
  pad S256x128 ![0, 0] ![0, 64] ![0, 0] W (sitofp .f32 (constantI S_ 32 0#32)) pads_S256x64_S256x128_000_0640 h_S_

/-- The layer-2 bias with 64 zeros appended. -/
def padB (b : (⟨S64, .f32⟩ : BufTy).Contents (Elt F)) : (⟨S128, .f32⟩ : BufTy).Contents (Elt F) :=
  pad S128 ![0] ![64] ![0] b (sitofp .f32 (constantI S_ 32 0#32)) pads_S64_S128_0640 h_S_

/-- Layer 2, 128 columns wide, from the table `T` the second region wrote. -/
def layer2 (T : (⟨S50000x128, .bf16⟩ : BufTy).Contents (Elt F)) (S D : (⟨S850000, .i32⟩ : BufTy).Contents (Elt F))
    (d : (⟨S50000, .f32⟩ : BufTy).Contents (Elt F)) (b : (⟨S128, .f32⟩ : BufTy).Contents (Elt F)) :
    (⟨S50000x128, .f32⟩ : BufTy).Contents (Elt F) :=
  maximumf
    (addf
      (mulf
        (Host.scatterAdd scatter_S50000x128_S850000x1_S850000x128_1_0_0_1
          (broadcastInDim S50000x128 ![] bcast_S_S50000x128 (constant S_ .f32 0x00000000#32))
          (broadcastInDim S850000x1 ![0] bcast_S850000_S850000x1_0 D)
          (extf .f32 (Host.gather gather_S50000x128_S850000x1_S850000x128_1_0_n_n_0_1_1128 T (wrapOf S)) bitsLt_bf16_f32))
        (broadcastInDim S50000x128 ![0, 1] bcast_S50000x1_S50000x128_0_1 (broadcastInDim S50000x1 ![0] bcast_S50000_S50000x1_0 d)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The first 64 columns. -/
def firstCols (X : (⟨S50000x128, .f32⟩ : BufTy).Contents (Elt F)) : (⟨S50000x64, .f32⟩ : BufTy).Contents (Elt F) :=
  extractStridedSlice S50000x64 ![0, 0] X slices_S50000x128_S50000x64_0_0

variable (m : (ℓ : Loc nD τ sig) → Buf (Elt F) ℓ) (ρ : Dev nD → PrngReg)

/-! ## Before the first region -/

theorem W3_v3 (c : Dev nD) : W3 m ρ c (Proc.devRef .tc main_v3) = srcOf (m ((c.tc : Thread nD τ).loc main_arg1)) := by
  show StableHlo.after hostOps0_2 (StableHlo.after hostOps0_1 (StableHlo.after hostOps0 (W0 m ρ c))) (Proc.devRef .tc main_v3) = _
  after_results
  rfl

theorem W3_v6 (c : Dev nD) : W3 m ρ c (Proc.devRef .tc main_v6) = dstOf (m ((c.tc : Thread nD τ).loc main_arg1)) := by
  show StableHlo.after hostOps0_2 (StableHlo.after hostOps0_1 (StableHlo.after hostOps0 (W0 m ρ c))) (Proc.devRef .tc main_v6) = _
  after_results
  rfl

set_option maxHeartbeats 2000000 in
theorem W3_v16 (c : Dev nD) : W3 m ρ c (Proc.devRef .tc main_v16) = dinvOf (dstOf (m ((c.tc : Thread nD τ).loc main_arg1))) := by
  show StableHlo.after hostOps0_2 (StableHlo.after hostOps0_1 (StableHlo.after hostOps0 (W0 m ρ c))) (Proc.devRef .tc main_v16) = _
  after_results_simp
  rfl

set_option maxHeartbeats 2000000 in
theorem W3_v17 (c : Dev nD) : W3 m ρ c (Proc.devRef .tc main_v17) = colOf (dinvOf (dstOf (m ((c.tc : Thread nD τ).loc main_arg1)))) := by
  show StableHlo.after hostOps0_2 (StableHlo.after hostOps0_1 (StableHlo.after hostOps0 (W0 m ρ c))) (Proc.devRef .tc main_v17) = _
  after_results_simp
  rfl

/-! ## Between the regions -/

set_option maxHeartbeats 2000000 in
theorem W10_v36 (c : Dev nD) : W10 m ρ c (Proc.devRef .tc main_v36)
    = layer1 (W4 m ρ c (Proc.devRef .tc main_v18)) (W4 m ρ c (Proc.devRef .tc main_v3)) (W4 m ρ c (Proc.devRef .tc main_v6))
        (W4 m ρ c (Proc.devRef .tc main_v16)) (W4 m ρ c (Proc.devRef .tc main_arg3)) := by
  show StableHlo.after hostOps1_5 (StableHlo.after hostOps1_4 (StableHlo.after hostOps1_3 (StableHlo.after hostOps1_2
    (StableHlo.after hostOps1_1 (StableHlo.after hostOps1 (W4 m ρ c)))))) (Proc.devRef .tc main_v36) = _
  after_results_simp
  rfl

theorem W10_v37 (c : Dev nD) : W10 m ρ c (Proc.devRef .tc main_v37) = padW (W4 m ρ c (Proc.devRef .tc main_arg4)) := by
  show StableHlo.after hostOps1_5 (StableHlo.after hostOps1_4 (StableHlo.after hostOps1_3 (StableHlo.after hostOps1_2
    (StableHlo.after hostOps1_1 (StableHlo.after hostOps1 (W4 m ρ c)))))) (Proc.devRef .tc main_v37) = _
  after_results
  rfl

theorem W10_v38 (c : Dev nD) : W10 m ρ c (Proc.devRef .tc main_v38) = padB (W4 m ρ c (Proc.devRef .tc main_arg5)) := by
  show StableHlo.after hostOps1_5 (StableHlo.after hostOps1_4 (StableHlo.after hostOps1_3 (StableHlo.after hostOps1_2
    (StableHlo.after hostOps1_1 (StableHlo.after hostOps1 (W4 m ρ c)))))) (Proc.devRef .tc main_v38) = _
  after_results
  rfl

/-! ## After the second region -/

set_option maxHeartbeats 2000000 in
theorem W14_v58 (c : Dev nD) : W14 m ρ c (Proc.devRef .tc main_v58)
    = firstCols (layer2 (W11 m ρ c (Proc.devRef .tc main_v39)) (W11 m ρ c (Proc.devRef .tc main_v3)) (W11 m ρ c (Proc.devRef .tc main_v6))
        (W11 m ρ c (Proc.devRef .tc main_v16)) (W11 m ρ c (Proc.devRef .tc main_v38))) := by
  show StableHlo.after hostOps2_2 (StableHlo.after hostOps2_1 (StableHlo.after hostOps2 (W11 m ρ c))) (Proc.devRef .tc main_v58) = _
  after_results_simp
  rfl

/-! ## Across the boundaries

No operation writes a buffer twice, so a buffer written in one segment still holds its contents at every later
boundary; a region changes only its own output array. -/

theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp

theorem W3_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp

theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp

theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp

theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp

theorem W4_arg3 (c : Dev nD) : W4 m ρ c (Proc.devRef .tc main_arg3) = m ((c.tc : Thread nD τ).loc main_arg3) :=
  (W4_of_ne m ρ c main_arg3 (by decide)).trans (W3_arg3 m ρ c)

theorem W4_arg4 (c : Dev nD) : W4 m ρ c (Proc.devRef .tc main_arg4) = m ((c.tc : Thread nD τ).loc main_arg4) :=
  (W4_of_ne m ρ c main_arg4 (by decide)).trans (W3_arg4 m ρ c)

theorem W4_arg5 (c : Dev nD) : W4 m ρ c (Proc.devRef .tc main_arg5) = m ((c.tc : Thread nD τ).loc main_arg5) :=
  (W4_of_ne m ρ c main_arg5 (by decide)).trans (W3_arg5 m ρ c)

theorem W10_v3 (c : Dev nD) : W10 m ρ c (Proc.devRef .tc main_v3) = W3 m ρ c (Proc.devRef .tc main_v3) := by
  refine Eq.trans ?_ (W4_of_ne m ρ c main_v3 (by decide))
  show StableHlo.after hostOps1_5 (StableHlo.after hostOps1_4 (StableHlo.after hostOps1_3 (StableHlo.after hostOps1_2
    (StableHlo.after hostOps1_1 (StableHlo.after hostOps1 (W4 m ρ c)))))) (Proc.devRef .tc main_v3) = _
  after_results_simp

theorem W10_v6 (c : Dev nD) : W10 m ρ c (Proc.devRef .tc main_v6) = W3 m ρ c (Proc.devRef .tc main_v6) := by
  refine Eq.trans ?_ (W4_of_ne m ρ c main_v6 (by decide))
  show StableHlo.after hostOps1_5 (StableHlo.after hostOps1_4 (StableHlo.after hostOps1_3 (StableHlo.after hostOps1_2
    (StableHlo.after hostOps1_1 (StableHlo.after hostOps1 (W4 m ρ c)))))) (Proc.devRef .tc main_v6) = _
  after_results_simp

theorem W10_v16 (c : Dev nD) : W10 m ρ c (Proc.devRef .tc main_v16) = W3 m ρ c (Proc.devRef .tc main_v16) := by
  refine Eq.trans ?_ (W4_of_ne m ρ c main_v16 (by decide))
  show StableHlo.after hostOps1_5 (StableHlo.after hostOps1_4 (StableHlo.after hostOps1_3 (StableHlo.after hostOps1_2
    (StableHlo.after hostOps1_1 (StableHlo.after hostOps1 (W4 m ρ c)))))) (Proc.devRef .tc main_v16) = _
  after_results_simp

/-- The column `dinv` is an input array of the first region, which leaves its input arrays as it found them. -/
theorem W10_v17 (c : Dev nD) : W10 m ρ c (Proc.devRef .tc main_v17) = W3 m ρ c (Proc.devRef .tc main_v17) := by
  refine Eq.trans ?_ ((W4_arr m ρ c 2).trans (((dat0 (V3 m ρ) c).arrAt_in 2 rfl _).trans (A_eq0 (V3 m ρ) c 2)))
  show StableHlo.after hostOps1_5 (StableHlo.after hostOps1_4 (StableHlo.after hostOps1_3 (StableHlo.after hostOps1_2
    (StableHlo.after hostOps1_1 (StableHlo.after hostOps1 (W4 m ρ c)))))) (Proc.devRef .tc main_v17) = _
  after_results_simp

theorem W11_v3 (c : Dev nD) : W11 m ρ c (Proc.devRef .tc main_v3) = W10 m ρ c (Proc.devRef .tc main_v3) :=
  W11_of_ne m ρ c main_v3 (by decide)

theorem W11_v6 (c : Dev nD) : W11 m ρ c (Proc.devRef .tc main_v6) = W10 m ρ c (Proc.devRef .tc main_v6) :=
  W11_of_ne m ρ c main_v6 (by decide)

theorem W11_v16 (c : Dev nD) : W11 m ρ c (Proc.devRef .tc main_v16) = W10 m ρ c (Proc.devRef .tc main_v16) :=
  W11_of_ne m ρ c main_v16 (by decide)

theorem W11_v38 (c : Dev nD) : W11 m ρ c (Proc.devRef .tc main_v38) = W10 m ρ c (Proc.devRef .tc main_v38) :=
  W11_of_ne m ρ c main_v38 (by decide)

/-! ## The kernel's value

With `src`, `dst`, `dinv` computed from the edge list: the result is the first 64 columns of layer 2 over the second
region's table; that region read layer 1's result (over the first region's table), the padded weights and the column
`dinv`; the first region read the features, the first weights and the column `dinv`. -/

section Value
variable (c : Dev nD)

/-- The first region's output array. -/
abbrev table1 := (dat0 (V3 m ρ) c).arrAt 3 cfg0.N
/-- The second region's output array. -/
abbrev table2 := (dat1 (V10 m ρ) c).arrAt 3 cfg1.N

theorem W4_v18 : W4 m ρ c (Proc.devRef .tc main_v18) = table1 m ρ c := W4_arr m ρ c 3
theorem W11_v39 : W11 m ρ c (Proc.devRef .tc main_v39) = table2 m ρ c := W11_arr m ρ c 3

/-- What the first region finds in its three input arrays. -/
theorem entry1 : V3 m ρ c (Pipeline.arrRef spec0 0) = m ((c.tc : Thread nD τ).loc main_arg0)
    ∧ V3 m ρ c (Pipeline.arrRef spec0 1) = m ((c.tc : Thread nD τ).loc main_arg2)
    ∧ V3 m ρ c (Pipeline.arrRef spec0 2) = colOf (dinvOf (dstOf (m ((c.tc : Thread nD τ).loc main_arg1)))) :=
  ⟨W3_arg0 m ρ c, W3_arg2 m ρ c, W3_v17 m ρ c⟩

/-- What the second region finds in its three input arrays. -/
theorem entry2 : V10 m ρ c (Pipeline.arrRef spec1 0)
      = layer1 (table1 m ρ c) (srcOf (m ((c.tc : Thread nD τ).loc main_arg1))) (dstOf (m ((c.tc : Thread nD τ).loc main_arg1)))
          (dinvOf (dstOf (m ((c.tc : Thread nD τ).loc main_arg1)))) (m ((c.tc : Thread nD τ).loc main_arg3))
    ∧ V10 m ρ c (Pipeline.arrRef spec1 1) = padW (m ((c.tc : Thread nD τ).loc main_arg4))
    ∧ V10 m ρ c (Pipeline.arrRef spec1 2) = colOf (dinvOf (dstOf (m ((c.tc : Thread nD τ).loc main_arg1)))) := by
  refine ⟨?_, ?_, ?_⟩
  · refine (W10_v36 m ρ c).trans ?_
    rw [W4_v18, W4_of_ne m ρ c main_v3 (by decide), W4_of_ne m ρ c main_v6 (by decide), W4_of_ne m ρ c main_v16 (by decide),
      W4_arg3, W3_v3, W3_v6, W3_v16]
  · refine (W10_v37 m ρ c).trans ?_
    rw [W4_arg4]
  · exact (W10_v17 m ρ c).trans (W3_v17 m ρ c)

/-- The result buffer at the last boundary. -/
theorem result_eq : W14 m ρ c (Proc.devRef .tc main_v58)
    = firstCols (layer2 (table2 m ρ c) (srcOf (m ((c.tc : Thread nD τ).loc main_arg1))) (dstOf (m ((c.tc : Thread nD τ).loc main_arg1)))
        (dinvOf (dstOf (m ((c.tc : Thread nD τ).loc main_arg1)))) (padB (m ((c.tc : Thread nD τ).loc main_arg5)))) := by
  refine (W14_v58 m ρ c).trans ?_
  rw [W11_v39, W11_v3, W11_v6, W11_v16, W11_v38, W10_v3, W10_v6, W10_v16, W10_v38, W4_arg5, W3_v3, W3_v6, W3_v16]

end Value

end Cert.KernelIdeal.Fold

end
-- ==== Proof.RefValue.lean ====
/-
  The idealized reference as two layers.

  With `src`, `dst` (the edge list with a self loop per node appended), the degree and `dinv` as in the kernel's
  program, the reference weighs edge `e` by `dinv (src e) * dinv (dst e)` (both read through a gather of single
  entries, negative indices wrapped), gathers the rows `src` of the dense product `H`, multiplies row `e` by its
  weight, adds the rows up per destination, adds the bias row and clips at 0. Its result is that aggregation of
  `relu-layer-1 · W2`, where layer 1 is the aggregation of `x · W1`.
-/
import proofs.«160101_j19774029431674_2_alg».proof.Proof.RefRun

set_option maxRecDepth 16384

noncomputable section

namespace Cert.ReferenceIdeal.RefValue

open Cert.ReferenceIdeal Cert.ReferenceIdeal.Gen
open Idealize.ShloMosaic Idealize.ShloMosaic.TcCoe Idealize.SL.Sem

variable {F : FTy → Type} [FloatOps F]

/-- Sources, with the self loops appended. -/
def srcOf (E : (⟨S2x800000, .i32⟩ : BufTy).Contents (Elt F)) : (⟨S850000, .i32⟩ : BufTy).Contents (Elt F) :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

/-- Destinations, with the self loops appended. -/
def dstOf (E : (⟨S2x800000, .i32⟩ : BufTy).Contents (Elt F)) : (⟨S850000, .i32⟩ : BufTy).Contents (Elt F) :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- The degree: one per entry of `dst` naming the node. -/
def degOf (D : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 D) (broadcastInDim S850000 ![] bcast_S_S850000 (constant S_ .f32 0x3F800000#32))

/-- 0 at degree 0, else the reciprocal square root of max(degree, 1). -/
def dinvOf (D : (⟨S850000, .i32⟩ : BufTy).Contents (Elt F)) : (⟨S50000, .f32⟩ : BufTy).Contents (Elt F) :=
  select (cmpf (F := F) .ogt (degOf D) (broadcastInDim S50000 ![] bcast_S_S50000 (constant S_ .f32 0x00000000#32)))
    (Host.rsqrt (maximumf (degOf D) (broadcastInDim S50000 ![] bcast_S_S50000 (constant S_ .f32 0x3F800000#32))))
    (broadcastInDim S50000 ![] bcast_S_S50000 (id (constant S_ .f32 0x00000000#32)))

/-- Start indices for a gather: negative entries wrapped by the row count, as a column. -/
def wrapOf (S : (⟨S850000, .i32⟩ : BufTy).Contents (Elt F)) : (⟨S850000x1, .i32⟩ : BufTy).Contents (Elt F) :=
  broadcastInDim S850000x1 ![0] bcast_S850000_S850000x1_0
    (select (cmpi .slt S (broadcastInDim S850000 ![] bcast_S_S850000 (constantI S_ 32 0#32)))
      (addi S (broadcastInDim S850000 ![] bcast_S_S850000 (constantI S_ 32 50000#32))) S)

/-- Layer 1's aggregation of the dense product `H`. -/
def agg1 (H : (⟨S50000x256, .f32⟩ : BufTy).Contents (Elt F)) (S D : (⟨S850000, .i32⟩ : BufTy).Contents (Elt F)) (d : (⟨S50000, .f32⟩ : BufTy).Contents (Elt F)) (b : (⟨S256, .f32⟩ : BufTy).Contents (Elt F)) :
    (⟨S50000x256, .f32⟩ : BufTy).Contents (Elt F) :=
  maximumf
    (addf
      (Host.scatterAdd scatter_S50000x256_S850000x1_S850000x256_1_0_0_1
        (broadcastInDim S50000x256 ![] bcast_S_S50000x256 (constant S_ .f32 0x00000000#32))
        (broadcastInDim S850000x1 ![0] bcast_S850000_S850000x1_0 D)
        (mulf (Host.gather gather_S50000x256_S850000x1_S850000x256_1_0_n_n_0_1_1256 H (wrapOf S))
          (broadcastInDim S850000x256 ![0, 1] bcast_S850000x1_S850000x256_0_1 (broadcastInDim S850000x1 ![0] bcast_S850000_S850000x1_0
            (mulf (Host.gather gather_S50000_S850000x1_S850000_n_0_n_n_0_1_1 d (wrapOf S))
              (Host.gather gather_S50000_S850000x1_S850000_n_0_n_n_0_1_1 d (wrapOf D)))))))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- Layer 2's aggregation of the dense product `H`. -/
def agg2 (H : (⟨S50000x64, .f32⟩ : BufTy).Contents (Elt F)) (S D : (⟨S850000, .i32⟩ : BufTy).Contents (Elt F)) (d : (⟨S50000, .f32⟩ : BufTy).Contents (Elt F)) (b : (⟨S64, .f32⟩ : BufTy).Contents (Elt F)) :
    (⟨S50000x64, .f32⟩ : BufTy).Contents (Elt F) :=
  maximumf
    (addf
      (Host.scatterAdd scatter_S50000x64_S850000x1_S850000x64_1_0_0_1
        (broadcastInDim S50000x64 ![] bcast_S_S50000x64 (constant S_ .f32 0x00000000#32))
        (broadcastInDim S850000x1 ![0] bcast_S850000_S850000x1_0 D)
        (mulf (Host.gather gather_S50000x64_S850000x1_S850000x64_1_0_n_n_0_1_164 H (wrapOf S))
          (broadcastInDim S850000x64 ![0, 1] bcast_S850000x1_S850000x64_0_1 (broadcastInDim S850000x1 ![0] bcast_S850000_S850000x1_0
            (mulf (Host.gather gather_S50000_S850000x1_S850000_n_0_n_n_0_1_1 d (wrapOf S))
              (Host.gather gather_S50000_S850000x1_S850000_n_0_n_n_0_1_1 d (wrapOf D)))))))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The two dense products. -/
def dense1 (X : (⟨S50000x128, .f32⟩ : BufTy).Contents (Elt F)) (W : (⟨S128x256, .f32⟩ : BufTy).Contents (Elt F)) : (⟨S50000x256, .f32⟩ : BufTy).Contents (Elt F) :=
  Host.dotGeneral dot_S50000x128_S128x256_S50000x256_1_0_0_1_n_n none X W
def dense2 (X : (⟨S50000x256, .f32⟩ : BufTy).Contents (Elt F)) (W : (⟨S256x64, .f32⟩ : BufTy).Contents (Elt F)) : (⟨S50000x64, .f32⟩ : BufTy).Contents (Elt F) :=
  Host.dotGeneral dot_S50000x256_S256x64_S50000x64_1_0_0_1_n_n none X W

set_option maxRecDepth 16384 in
/-- The reference's result is layer 2's aggregation of `relu-layer-1 · W2`. -/
theorem res_eq (m : (ℓ : Loc nD τ sig) → Buf (Elt F) ℓ) (c : Dev nD) :
    ValueP.res_main_v67 m c
      = agg2 (dense2 (agg1 (dense1 (m ((c.tc : Thread nD τ).loc main_arg0)) (m ((c.tc : Thread nD τ).loc main_arg2)))
              (srcOf (m ((c.tc : Thread nD τ).loc main_arg1))) (dstOf (m ((c.tc : Thread nD τ).loc main_arg1)))
              (dinvOf (dstOf (m ((c.tc : Thread nD τ).loc main_arg1)))) (m ((c.tc : Thread nD τ).loc main_arg3)))
            (m ((c.tc : Thread nD τ).loc main_arg4)))
          (srcOf (m ((c.tc : Thread nD τ).loc main_arg1))) (dstOf (m ((c.tc : Thread nD τ).loc main_arg1)))
          (dinvOf (dstOf (m ((c.tc : Thread nD τ).loc main_arg1)))) (m ((c.tc : Thread nD τ).loc main_arg5)) := by
  unfold ValueP.res_main_v67
  rfl

end Cert.ReferenceIdeal.RefValue

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.LibRsqrtRange.lean ====
/-
  Ranges of pointwise values on the extended reals, and two constants.

  * The reciprocal square root of `max y 1` is a non-negative real number for EVERY extended real `y`:
    `max y 1 ≥ 1`, so it is either `⊤`, whose reciprocal square root is `0`, or a real `r ≥ 1`, whose reciprocal
    square root is the real `(√r)⁻¹ ≥ 0`.
  * A pointwise choice between two arrays whose entries all satisfy a predicate has entries satisfying it.
  * The 32-bit pattern `0x3F800000` denotes the extended real `1`.
  * A scalar constant spread over any shape reads its one value at every index.
-/
import Idealize.ShloMosaic.PureOps.Ideal
import Idealize.ShloMosaic.PureOps.ShapeOps
import Idealize.ShloMosaic.Lib.ValueIdx

noncomputable section

namespace Cert.LibRsqrtRange

open Idealize.ShloMosaic Idealize.ShloMosaic.ValueIdx

/-- The reciprocal square root of an extended real `y ≥ 1` is a non-negative real number: at `⊤` it is `0`, at a
    real `r ≥ 1` it is `(√r)⁻¹`. -/
theorem rsqrt_range_of_one_le (y : EReal) (hy : 1 ≤ y) : 0 ≤ Ideal.rsqrt y ∧ Ideal.rsqrt y ≠ ⊤ := by
  induction y using EReal.rec with
  | bot =>
    have h : (⊥ : EReal) < 1 := by rw [← EReal.coe_one]; exact EReal.bot_lt_coe 1
    exact absurd hy (not_le.mpr h)
  | top => exact ⟨le_of_eq Ideal.rsqrt_top.symm, by rw [Ideal.rsqrt_top]; exact EReal.zero_ne_top⟩
  | coe r =>
    have hr : (1 : ℝ) ≤ r := by exact_mod_cast hy
    have h1 : ¬ r < 0 := by linarith
    have h2 : ¬ r = 0 := by intro h; rw [h] at hr; linarith
    rw [Ideal.rsqrt_coe, if_neg h1, if_neg h2]
    refine ⟨?_, EReal.coe_ne_top _⟩
    exact_mod_cast inv_nonneg.mpr (Real.sqrt_nonneg r)

/-- THE RANGE OF `rsqrt (max deg 1)`: at every index a non-negative real number, whatever the extended real
    `deg i` is (`max (deg i) 1 ≥ 1`). -/
theorem rsqrt_max_one_range {s : Shape} (deg one : FVec Ideal s .f32) (hone : ∀ i, one i = 1) (i : s.Idx) :
    0 ≤ Host.rsqrt (F := Ideal) (maximumf deg one) i ∧ Host.rsqrt (F := Ideal) (maximumf deg one) i ≠ ⊤ := by
  show 0 ≤ Ideal.rsqrt (max (deg i) (one i)) ∧ Ideal.rsqrt (max (deg i) (one i)) ≠ ⊤
  exact rsqrt_range_of_one_le _ (by rw [hone i]; exact le_max_right _ _)

/-- The same for the kernel-side pointwise `rsqrt`, which at the ideal instance is the same function. -/
theorem rsqrt_max_one_range' {s : Shape} (deg one : FVec Ideal s .f32) (hone : ∀ i, one i = 1) (i : s.Idx) :
    0 ≤ rsqrt (F := Ideal) (maximumf deg one) i ∧ rsqrt (F := Ideal) (maximumf deg one) i ≠ ⊤ :=
  rsqrt_max_one_range deg one hone i

/-- A pointwise choice between two arrays whose entries all satisfy `P` has entries satisfying `P`. -/
theorem select_range {s : Shape} (c : IVec s 1) (a b : FVec Ideal s .f32) (P : EReal → Prop)
    (ha : ∀ i, P (a i)) (hb : ∀ i, P (b i)) (i : s.Idx) : P (select c a b i) := by
  rw [select_apply]
  unfold Scalar.select
  split
  · exact ha i
  · exact hb i

/-- The 32-bit pattern `0x3F800000` (sign 0, exponent 127, fraction 0) denotes the extended real one. -/
theorem ofBits_one_f32 : Ideal.ofBits .f32 0x3F800000#32 = (1 : EReal) := by
  rw [show (1 : EReal) = ((1 : ℝ) : EReal) by norm_cast]
  simp [Ideal.ofBits, Ideal.ieee, -EReal.coe_mul]; norm_num

/-- A scalar constant spread over any shape reads, at every index, the value its bit pattern denotes. -/
theorem bcast_const_apply {t : Shape} (h : (⟨0, ![]⟩ : Shape).BroadcastsInDim t (![] : Fin 0 → Fin t.rank))
    (bits : BitVec 32) (j : t.Idx) :
    broadcastInDim t ![] h (constant (F := Ideal) ⟨0, ![]⟩ .f32 bits) j = Ideal.ofBits .f32 bits := rfl

end Cert.LibRsqrtRange

end
-- ==== Proof.LibIndexWrap.lean ====
/-
  Wrapping a negative index: `select (idx < 0) (idx + n) idx`.

  Indexing from the end is written as adding the length to a negative index and leaving a non-negative one alone.
  On 32-bit integers compared as signed numbers, an index whose signed value is `≥ 0` is not less than `0`, so the
  choice takes its second branch: the wrapped index IS the index.
-/
import Idealize.ShloMosaic.PureOps.Ideal
import Idealize.ShloMosaic.Lib.ValueIdx

namespace Cert.LibIndexWrap

open Idealize.ShloMosaic Idealize.ShloMosaic.ValueIdx

/-- The signed comparison `x < 0` on 32-bit integers answers the bit `0` when the signed value of `x` is
    non-negative. -/
theorem cmpi_slt_zero_of_nonneg (x : BitVec 32) (hx : 0 ≤ x.toInt) : IntOp.cmpi .slt x 0#32 = 0#1 := by
  have h : x.slt 0#32 = false := by
    rw [BitVec.slt_eq_decide, BitVec.toInt_zero]
    exact decide_eq_false (by omega)
  show BitVec.ofBool (x.slt 0#32) = 0#1
  rw [h]
  rfl

/-- THE WRAP OF A NON-NEGATIVE INDEX: where the signed value of `D i` is `≥ 0`, `select (D < 0) (D + n) D` reads
    `D i` (`z` is the all-zero array the comparison is made against). -/
theorem wrap_of_nonneg {s : Shape} (D z n : IVec s 32) (hz : ∀ i, z i = 0#32) (i : s.Idx) (hi : 0 ≤ (D i).toInt) :
    select (cmpi .slt D z) (addi D n) D i = D i := by
  have hc : cmpi .slt D z i = 0#1 := by
    show IntOp.cmpi .slt (D i) (z i) = 0#1
    rw [hz i]
    exact cmpi_slt_zero_of_nonneg (D i) hi
  rw [select_apply, hc, select_zero]

end Cert.LibIndexWrap
-- ==== Proof.BridgeFacts.lean ====
/-
  Facts about the shared index arithmetic, on the extended reals.

  Both programs build the same sources, destinations and `dinv` from the edge list (their printed texts differ only in
  which program's shape names they use). `dinv` is 0 or the reciprocal square root of a number that is at least 1, so it is
  a non-negative real at every node. And an edge whose destination, read as a signed number, is the node `p` has a
  non-negative destination, which the wrap of negative indices leaves alone and which lies inside the table: a gather
  through the wrapped destinations reads row `p` for it.
-/
import proofs.«160101_j19774029431674_2_alg».proof.Proof.KernelFold
import proofs.«160101_j19774029431674_2_alg».proof.Proof.RefValue
import proofs.«160101_j19774029431674_2_alg».proof.Proof.LibColumn
import proofs.«160101_j19774029431674_2_alg».proof.Proof.LibColumns
import proofs.«160101_j19774029431674_2_alg».proof.Proof.LibRsqrtRange
import proofs.«160101_j19774029431674_2_alg».proof.Proof.LibIndexWrap
import Idealize.ShloMosaic.Lib.IdealHost

set_option maxRecDepth 16384

noncomputable section

namespace Cert.Bridge

open Cert.KernelIdeal Cert.KernelIdeal.Gen Cert.KernelIdeal.Fold
open Idealize.ShloMosaic Idealize.ShloMosaic.ValueIdx

/-! ## The two programs' index arithmetic is one -/

theorem ref_srcOf (E : IVec S2x800000 32) : Cert.ReferenceIdeal.RefValue.srcOf (F := Ideal) E = srcOf (F := Ideal) E := rfl
theorem ref_dstOf (E : IVec S2x800000 32) : Cert.ReferenceIdeal.RefValue.dstOf (F := Ideal) E = dstOf (F := Ideal) E := rfl
theorem ref_dinvOf (D : IVec S850000 32) : Cert.ReferenceIdeal.RefValue.dinvOf (F := Ideal) D = dinvOf (F := Ideal) D := rfl
theorem ref_wrapOf (S : IVec S850000 32) : Cert.ReferenceIdeal.RefValue.wrapOf (F := Ideal) S = wrapOf (F := Ideal) S := rfl

/-! ## `dinv` is a non-negative real -/

theorem dinv_range (D : IVec S850000 32) (r : Fin 50000) :
    0 ≤ dinvOf (F := Ideal) D (ix1 r) ∧ dinvOf (F := Ideal) D (ix1 r) ≠ ⊤ := by
  unfold dinvOf
  refine Cert.LibRsqrtRange.select_range _ _ _ (fun v => 0 ≤ v ∧ v ≠ ⊤) (fun i => ?_) (fun i => ?_) (ix1 r)
  · exact Cert.LibRsqrtRange.rsqrt_max_one_range _ _
      (fun j => (Cert.LibRsqrtRange.bcast_const_apply bcast_S_S50000 _ j).trans Cert.LibRsqrtRange.ofBits_one_f32) i
  · have h0 : (broadcastInDim S50000 ![] bcast_S_S50000 (id (constant (F := Ideal) S_ .f32 0x00000000#32)) : FVec Ideal S50000 .f32) i = 0 :=
      (Cert.LibRsqrtRange.bcast_const_apply bcast_S_S50000 _ i).trans Ideal.ofBits_zero_f32
    rw [h0]
    exact ⟨le_rfl, EReal.zero_ne_top⟩

/-! ## An edge that lands on node `p` gathers row `p` through its wrapped destination -/

theorem wrap_row (D : IVec S850000 32) (e : Fin 850000) (p : Fin 50000)
    (h : ((broadcastInDim S850000x1 ![0] bcast_S850000_S850000x1_0 D : IVec S850000x1 32) (ix2 e (0 : Fin 1))).toInt = (p.val : ℤ)) :
    Cert.LibColumns.gatherRow (wrapOf (F := Ideal) D) (by decide : 0 < 50000) e = p := by
  have h1 : (broadcastInDim S850000x1 ![0] bcast_S850000_S850000x1_0 D : IVec S850000x1 32) (ix2 e (0 : Fin 1)) = D (ix1 e) :=
    Cert.LibColumn.bcastInDim_a_a1_apply D bcast_S850000_S850000x1_0 e 0
  rw [h1] at h
  have h2 : (wrapOf (F := Ideal) D : IVec S850000x1 32) (ix2 e (0 : Fin 1)) = D (ix1 e) := by
    unfold wrapOf
    refine (Cert.LibColumn.bcastInDim_a_a1_apply _ bcast_S850000_S850000x1_0 e 0).trans ?_
    exact Cert.LibIndexWrap.wrap_of_nonneg D _ _
      (fun i => Cert.LibColumn.bcastInDim_scalar_apply _ bcast_S_S850000 i (fun a => a.elim0)) (ix1 e) (by rw [h]; exact Int.natCast_nonneg _)
  refine Fin.ext ?_
  show min ((wrapOf (F := Ideal) D : IVec S850000x1 32) (ix2 e (0 : Fin 1))).toInt.toNat (50000 - 1) = p.val
  rw [h2, h, Int.toNat_natCast]
  have := p.isLt
  omega

end Cert.Bridge

end
-- ==== Proof.LibScaleSum.lean ====
/-
  Scaling a sum on the extended reals.

  On the extended reals multiplication does not distribute over addition in general: `⊤ + ⊥ = ⊥`, so for a
  negative or an infinite factor the two sides can differ. For a factor that is a NON-NEGATIVE REAL NUMBER
  (`0 ≤ d`, `d ≠ ⊤`) it does: `d = 0` kills both sides, and a positive real keeps every infinity's sign.
  Hence a finite sum multiplied by such a factor is the sum of the multiplied terms, and the same holds for a sum
  restricted to the indices satisfying a predicate (the terms outside it are `0`, and `0 * d = 0`).
-/
import Mathlib.Data.EReal.Operations
import Mathlib.Algebra.BigOperators.Group.Finset.Basic

open scoped BigOperators

namespace Cert.LibScaleSum

/-- Multiplication on the right by a non-negative real number distributes over a sum of two extended reals. -/
theorem add_mul_of_nonneg_ne_top (x y d : EReal) (h0 : 0 ≤ d) (ht : d ≠ ⊤) : (x + y) * d = x * d + y * d :=
  EReal.right_distrib_of_nonneg_of_ne_top h0 ht x y

/-- Multiplication on the right by a non-negative real number distributes over a finite sum of extended
    reals. -/
theorem sum_mul_of_nonneg_ne_top {ι : Type*} (s : Finset ι) (a : ι → EReal) (d : EReal) (h0 : 0 ≤ d) (ht : d ≠ ⊤) :
    (∑ e ∈ s, a e) * d = ∑ e ∈ s, a e * d := by
  classical
  induction s using Finset.induction_on with
  | empty => simp
  | insert i s hi ih =>
    rw [Finset.sum_insert hi, Finset.sum_insert hi, add_mul_of_nonneg_ne_top _ _ d h0 ht, ih]

/-- A sum over the indices satisfying `p` (the other terms are `0`), multiplied by a non-negative real number, is
    the sum over the same indices of the multiplied terms. -/
theorem sum_ite_mul {ι : Type*} [Fintype ι] (p : ι → Prop) [DecidablePred p] (a : ι → EReal) (d : EReal)
    (h0 : 0 ≤ d) (ht : d ≠ ⊤) :
    (∑ e, if p e then a e else 0) * d = ∑ e, if p e then a e * d else 0 := by
  rw [sum_mul_of_nonneg_ne_top Finset.univ _ d h0 ht]
  refine Finset.sum_congr rfl fun e _ => ?_
  by_cases h : p e
  · rw [if_pos h, if_pos h]
  · rw [if_neg h, if_neg h, zero_mul]

end Cert.LibScaleSum
-- ==== Proof.LibGatherFlat.lean ====
/-
  A gather of single entries of a flat array.

  The operand is a rank-1 array of `N` entries, the start indices are a column `[E, 1]` (one signed integer per
  result entry), the result is a rank-1 array of `E` entries: result entry `e` is the operand's entry at the start
  index `J (e, 0)`, read as a signed integer and brought into `[0, N − 1]`. This is the row gather of an array of
  `N` rows with the column axis removed, and it reads the same row: `Cert.LibColumns.gatherRow J hN e`.

  The dimension numbers are the record `flatGather` below (no offset axes; operand axis 0 collapsed and named by
  the index; the index vector along axis 1 of the start indices; slices of one entry), whose side conditions are
  a parameter: any record with the same lists is this one by `rfl`.
-/
import Idealize.ShloMosaic.PureOps.Ideal
import Idealize.ShloMosaic.PureOps.ShapeOps
import Idealize.ShloMosaic.PureOps.Dims
import Idealize.ShloMosaic.Lib.ValueIdx
import proofs.«160101_j19774029431674_2_alg».proof.Proof.LibColumns

noncomputable section

namespace Cert.LibGatherFlat

open Idealize.ShloMosaic Idealize.ShloMosaic.ValueIdx

/-- The dimension numbers of a gather of single entries: result `[E]` reads an operand `[N]` at the entries named
    by start indices `[E, 1]` — the result has no offset axis, the operand's axis 0 is collapsed and is the one the
    index names, slices are one entry, the index vector lies along axis 1 of the indices. -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Gather
variable {α : Type} {N E w : Nat}
  (wf : GatherDims.WF ⟨1, ![N]⟩ ⟨2, ![E, 1]⟩ ⟨1, ![E]⟩ [] [0] [] [0] [] 1 ![1])
  (J : IVec ⟨2, ![E, 1]⟩ w)

/-- The operand index of result entry `e` is the entry `gatherRow e`: the start index `J (e, 0)` as a signed
    integer, brought into `[0, N − 1]`. -/
theorem flatGather_operandIdx (hN : 0 < N) (e : Fin E) :
    (flatGather N E wf).operandIdx (ix1 e) J = ix1 (Cert.LibColumns.gatherRow J hN e) := by
  funext a
  obtain rfl : a = 0 := Subsingleton.elim _ _
  refine Fin.ext ?_
  show (flatGather N E wf).start (ix1 e) J 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF SINGLE ENTRIES AT `e`: the operand at the entry `gatherRow e`. -/
theorem gather_flat_apply (hN : 0 < N) (x : (⟨1, ![N]⟩ : Shape).Idx → α) (e : Fin E) :
    Host.gather (flatGather N E wf) x J (ix1 e) = x (ix1 (Cert.LibColumns.gatherRow J hN e)) := by
  unfold Host.gather
  rw [flatGather_operandIdx wf J hN e]

end Gather

end Cert.LibGatherFlat

end
-- ==== Proof.LibConvLayer.lean ====
/-
  One graph-convolution layer read at one entry, in its two forms.

  For a node `p` and a channel, the layer sums over the edges `e` whose destination `I e` is `p` the source row
  `g e` of a table, scales by the per-node factors, adds a bias and cuts at `0`.

  * THE FIRST FORM scales the table's rows beforehand (`T (r, ·) = H (r, ·) · d r`) and the sum afterwards:
    `max ((Σ_{I e = p} T (g e, c)) · d p + b c) 0`.
  * THE SECOND FORM scales each summand by the product of the two endpoint factors:
    `max (Σ_{I e = p} H (g e, c) · (d (g e) · d (g' e)) + b c) 0`, where `g' e` is the destination read through a
    second index column, equal to `p` on the edges that are summed.

  They agree as soon as `d p` is a non-negative real number: multiplication by such a factor distributes over the
  sum of extended reals, and multiplication of extended reals is associative. The two sides may carry different
  numbers of columns (`C` and `C'`): the entry is `(p, q')` on one side and `(p, q)` on the other, linked only by
  the hypotheses on the table and the bias.
-/
import Idealize.ShloMosaic.PureOps.Ideal
import Idealize.ShloMosaic.PureOps.Ideal.Laws
import Idealize.ShloMosaic.PureOps.ShapeOps
import Idealize.ShloMosaic.PureOps.Dims
import Idealize.ShloMosaic.PureOps.Contract
import Idealize.ShloMosaic.Lib.ValueIdx
import proofs.«160101_j19774029431674_2_alg».proof.Proof.LibColumns
import proofs.«160101_j19774029431674_2_alg».proof.Proof.LibColumn
import proofs.«160101_j19774029431674_2_alg».proof.Proof.LibScaleSum
import proofs.«160101_j19774029431674_2_alg».proof.Proof.LibRsqrtRange
import proofs.«160101_j19774029431674_2_alg».proof.Proof.LibGatherFlat

noncomputable section

open scoped BigOperators

namespace Cert.LibConvLayer

open Cert.LibColumns Cert.LibColumn Cert.LibRsqrtRange Cert.LibGatherFlat Cert.LibScaleSum
open Idealize.ShloMosaic Idealize.ShloMosaic.ValueIdx

/-- THE FIRST FORM AT `(p, q')`: the rows of `T` named by `J` are scattered (with addition, from zero) to the rows
    named by `I`, the result is scaled by the column `d`, the bias row `bK` is added and the result cut at `0`:
    `max ((Σ_{I e = p} T (g e, q')) · d p + bK q') 0`. -/
theorem first_form_apply {N E C w : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (hc1 : (⟨1, ![N]⟩ : Shape).BroadcastsInDim ⟨2, ![N, 1]⟩ ![0])
    (hc2 : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (hx : FTy.bf16.bits < FTy.f32.bits)
    (I J : IVec ⟨2, ![E, 1]⟩ w)
    (T : FVec Ideal ⟨2, ![N, C]⟩ .bf16) (d : FVec Ideal ⟨1, ![N]⟩ .f32)
    (bK : FVec Ideal ⟨1, ![C]⟩ .f32) (p : Fin N) (q' : Fin C) :
    maximumf
        (addf
          (mulf
            (Host.scatterAdd (rowScatter N E C wfS)
              (broadcastInDim ⟨2, ![N, C]⟩ ![] hz (constant (F := Ideal) ⟨0, ![]⟩ .f32 0x00000000#32)) I
              (extf .f32 (Host.gather (rowGather N E C wfG) T J) hx))
            (broadcastInDim ⟨2, ![N, C]⟩ ![0, 1] hc2 (broadcastInDim ⟨2, ![N, 1]⟩ ![0] hc1 d)))
          (broadcastInDim ⟨2, ![N, C]⟩ ![0, 1] hb2 (broadcastInDim ⟨2, ![1, C]⟩ ![1] hb1 bK)))
        (broadcastInDim ⟨2, ![N, C]⟩ ![] hz (constant (F := Ideal) ⟨0, ![]⟩ .f32 0x00000000#32)) (ix2 p q')
      = max ((∑ e : Fin E, if (I (ix2 e (0 : Fin 1))).toInt = (p.val : ℤ) then T (ix2 (gatherRow J hN e) q') else 0)
          * d (ix1 p) + bK (ix1 q')) 0 := by
  rw [maximumf_apply, addf_apply, mulf_apply, scatterAdd_rows_apply, bcast_const_apply, Ideal.ofBits_zero_f32, zero_add,
    bcastInDim_a1_ab_apply, bcastInDim_a_a1_apply, bcastInDim_1b_ab_apply, bcastInDim_b_1b_apply]
  have hsum : (∑ e : Fin E, if (I (ix2 e (0 : Fin 1))).toInt = (p.val : ℤ)
        then extf .f32 (Host.gather (rowGather N E C wfG) T J) hx (ix2 e q') else 0)
      = ∑ e : Fin E, if (I (ix2 e (0 : Fin 1))).toInt = (p.val : ℤ) then T (ix2 (gatherRow J hN e) q') else 0 :=
    Finset.sum_congr rfl fun e _ => by rw [extf_apply, gather_rows_apply wfG J hN]
  rw [hsum]

/-- THE SECOND FORM AT `(p, q)`: the rows of `H` named by `J`, each scaled by the product of `d` at the two
    entries named by `J` and `J'`, are scattered (with addition, from zero) to the rows named by `I`, the bias row
    `bR` is added and the result cut at `0`: `max (Σ_{I e = p} H (g e, q) · (d (g e) · d (g' e)) + bR q) 0`. -/
theorem second_form_apply {N E C' w : Nat} (hN : 0 < N)
    (wfS' : ScatterDims.WF ⟨2, ![N, C']⟩ ⟨2, ![E, 1]⟩ ⟨2, ![E, C']⟩ [1] [0] [0] 1)
    (wfG' : GatherDims.WF ⟨2, ![N, C']⟩ ⟨2, ![E, 1]⟩ ⟨2, ![E, C']⟩ [1] [0] [] [0] [] 1 ![1, C'])
    (wfF : GatherDims.WF ⟨1, ![N]⟩ ⟨2, ![E, 1]⟩ ⟨1, ![E]⟩ [] [0] [] [0] [] 1 ![1])
    (hz' : (⟨0, ![]⟩ : Shape).BroadcastsInDim ⟨2, ![N, C']⟩ ![])
    (he1 : (⟨1, ![E]⟩ : Shape).BroadcastsInDim ⟨2, ![E, 1]⟩ ![0])
    (he2 : (⟨2, ![E, 1]⟩ : Shape).BroadcastsInDim ⟨2, ![E, C']⟩ ![0, 1])
    (hb1' : (⟨1, ![C']⟩ : Shape).BroadcastsInDim ⟨2, ![1, C']⟩ ![1])
    (hb2' : (⟨2, ![1, C']⟩ : Shape).BroadcastsInDim ⟨2, ![N, C']⟩ ![0, 1])
    (I J J' : IVec ⟨2, ![E, 1]⟩ w)
    (H : FVec Ideal ⟨2, ![N, C']⟩ .f32) (d : FVec Ideal ⟨1, ![N]⟩ .f32)
    (bR : FVec Ideal ⟨1, ![C']⟩ .f32) (p : Fin N) (q : Fin C') :
    maximumf
        (addf
          (Host.scatterAdd (rowScatter N E C' wfS')
            (broadcastInDim ⟨2, ![N, C']⟩ ![] hz' (constant (F := Ideal) ⟨0, ![]⟩ .f32 0x00000000#32)) I
            (mulf (Host.gather (rowGather N E C' wfG') H J)
              (broadcastInDim ⟨2, ![E, C']⟩ ![0, 1] he2 (broadcastInDim ⟨2, ![E, 1]⟩ ![0] he1
                (mulf (Host.gather (flatGather N E wfF) d J) (Host.gather (flatGather N E wfF) d J'))))))
          (broadcastInDim ⟨2, ![N, C']⟩ ![0, 1] hb2' (broadcastInDim ⟨2, ![1, C']⟩ ![1] hb1' bR)))
        (broadcastInDim ⟨2, ![N, C']⟩ ![] hz' (constant (F := Ideal) ⟨0, ![]⟩ .f32 0x00000000#32)) (ix2 p q)
      = max ((∑ e : Fin E, if (I (ix2 e (0 : Fin 1))).toInt = (p.val : ℤ)
            then H (ix2 (gatherRow J hN e) q) * (d (ix1 (gatherRow J hN e)) * d (ix1 (gatherRow J' hN e))) else 0)
          + bR (ix1 q)) 0 := by
  rw [maximumf_apply, addf_apply, scatterAdd_rows_apply, bcast_const_apply, Ideal.ofBits_zero_f32, zero_add,
    bcastInDim_1b_ab_apply, bcastInDim_b_1b_apply]
  have hsum : (∑ e : Fin E, if (I (ix2 e (0 : Fin 1))).toInt = (p.val : ℤ)
        then mulf (Host.gather (rowGather N E C' wfG') H J)
          (broadcastInDim ⟨2, ![E, C']⟩ ![0, 1] he2 (broadcastInDim ⟨2, ![E, 1]⟩ ![0] he1
            (mulf (Host.gather (flatGather N E wfF) d J) (Host.gather (flatGather N E wfF) d J')))) (ix2 e q) else 0)
      = ∑ e : Fin E, if (I (ix2 e (0 : Fin 1))).toInt = (p.val : ℤ)
        then H (ix2 (gatherRow J hN e) q) * (d (ix1 (gatherRow J hN e)) * d (ix1 (gatherRow J' hN e))) else 0 :=
    Finset.sum_congr rfl fun e _ => by
      rw [mulf_apply, gather_rows_apply wfG' J hN, bcastInDim_a1_ab_apply, bcastInDim_a_a1_apply, mulf_apply,
        gather_flat_apply wfF J hN, gather_flat_apply wfF J' hN]
  rw [hsum]

/-- THE TWO FORMS AGREE at the entries `(p, q')` and `(p, q)` when column `q'` of `T` is column `q` of `H` scaled row
    by row by `d`, the biases agree there, `d p` is a non-negative real number, and the second index column `J'`
    names `p` on every edge whose destination is `p`. -/
theorem conv_layer_eq {N E C C' w : Nat} (hN : 0 < N)
    (wfS : ScatterDims.WF ⟨2, ![N, C]⟩ ⟨2, ![E, 1]⟩ ⟨2, ![E, C]⟩ [1] [0] [0] 1)
    (wfS' : ScatterDims.WF ⟨2, ![N, C']⟩ ⟨2, ![E, 1]⟩ ⟨2, ![E, C']⟩ [1] [0] [0] 1)
    (wfG : GatherDims.WF ⟨2, ![N, C]⟩ ⟨2, ![E, 1]⟩ ⟨2, ![E, C]⟩ [1] [0] [] [0] [] 1 ![1, C])
    (wfG' : GatherDims.WF ⟨2, ![N, C']⟩ ⟨2, ![E, 1]⟩ ⟨2, ![E, C']⟩ [1] [0] [] [0] [] 1 ![1, C'])
    (wfF : GatherDims.WF ⟨1, ![N]⟩ ⟨2, ![E, 1]⟩ ⟨1, ![E]⟩ [] [0] [] [0] [] 1 ![1])
    (hz : (⟨0, ![]⟩ : Shape).BroadcastsInDim ⟨2, ![N, C]⟩ ![])
    (hz' : (⟨0, ![]⟩ : Shape).BroadcastsInDim ⟨2, ![N, C']⟩ ![])
    (hc1 : (⟨1, ![N]⟩ : Shape).BroadcastsInDim ⟨2, ![N, 1]⟩ ![0])
    (hc2 : (⟨2, ![N, 1]⟩ : Shape).BroadcastsInDim ⟨2, ![N, C]⟩ ![0, 1])
    (he1 : (⟨1, ![E]⟩ : Shape).BroadcastsInDim ⟨2, ![E, 1]⟩ ![0])
    (he2 : (⟨2, ![E, 1]⟩ : Shape).BroadcastsInDim ⟨2, ![E, C']⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (hb1' : (⟨1, ![C']⟩ : Shape).BroadcastsInDim ⟨2, ![1, C']⟩ ![1])
    (hb2' : (⟨2, ![1, C']⟩ : Shape).BroadcastsInDim ⟨2, ![N, C']⟩ ![0, 1])
    (hx : FTy.bf16.bits < FTy.f32.bits)
    (I J J' : IVec ⟨2, ![E, 1]⟩ w)
    (T : FVec Ideal ⟨2, ![N, C]⟩ .bf16) (H : FVec Ideal ⟨2, ![N, C']⟩ .f32) (d : FVec Ideal ⟨1, ![N]⟩ .f32)
    (bK : FVec Ideal ⟨1, ![C]⟩ .f32) (bR : FVec Ideal ⟨1, ![C']⟩ .f32) (p : Fin N) (q' : Fin C) (q : Fin C')
    (hT : ∀ r : Fin N, T (ix2 r q') = H (ix2 r q) * d (ix1 r))
    (hb : bK (ix1 q') = bR (ix1 q))
    (hd : 0 ≤ d (ix1 p) ∧ d (ix1 p) ≠ ⊤)
    (hJ' : ∀ e : Fin E, (I (ix2 e (0 : Fin 1))).toInt = (p.val : ℤ) → gatherRow J' hN e = p) :
    maximumf
        (addf
          (mulf
            (Host.scatterAdd (rowScatter N E C wfS)
              (broadcastInDim ⟨2, ![N, C]⟩ ![] hz (constant (F := Ideal) ⟨0, ![]⟩ .f32 0x00000000#32)) I
              (extf .f32 (Host.gather (rowGather N E C wfG) T J) hx))
            (broadcastInDim ⟨2, ![N, C]⟩ ![0, 1] hc2 (broadcastInDim ⟨2, ![N, 1]⟩ ![0] hc1 d)))
          (broadcastInDim ⟨2, ![N, C]⟩ ![0, 1] hb2 (broadcastInDim ⟨2, ![1, C]⟩ ![1] hb1 bK)))
        (broadcastInDim ⟨2, ![N, C]⟩ ![] hz (constant (F := Ideal) ⟨0, ![]⟩ .f32 0x00000000#32)) (ix2 p q')
      = maximumf
        (addf
          (Host.scatterAdd (rowScatter N E C' wfS')
            (broadcastInDim ⟨2, ![N, C']⟩ ![] hz' (constant (F := Ideal) ⟨0, ![]⟩ .f32 0x00000000#32)) I
            (mulf (Host.gather (rowGather N E C' wfG') H J)
              (broadcastInDim ⟨2, ![E, C']⟩ ![0, 1] he2 (broadcastInDim ⟨2, ![E, 1]⟩ ![0] he1
                (mulf (Host.gather (flatGather N E wfF) d J) (Host.gather (flatGather N E wfF) d J'))))))
          (broadcastInDim ⟨2, ![N, C']⟩ ![0, 1] hb2' (broadcastInDim ⟨2, ![1, C']⟩ ![1] hb1' bR)))
        (broadcastInDim ⟨2, ![N, C']⟩ ![] hz' (constant (F := Ideal) ⟨0, ![]⟩ .f32 0x00000000#32)) (ix2 p q) := by
  rw [first_form_apply hN wfS wfG hz hc1 hc2 hb1 hb2 hx I J T d bK p q',
    second_form_apply hN wfS' wfG' wfF hz' he1 he2 hb1' hb2' I J J' H d bR p q]
  have hsum : (∑ e : Fin E, if (I (ix2 e (0 : Fin 1))).toInt = (p.val : ℤ) then T (ix2 (gatherRow J hN e) q') else 0)
        * d (ix1 p)
      = ∑ e : Fin E, if (I (ix2 e (0 : Fin 1))).toInt = (p.val : ℤ)
        then H (ix2 (gatherRow J hN e) q) * (d (ix1 (gatherRow J hN e)) * d (ix1 (gatherRow J' hN e))) else 0 := by
    refine (sum_ite_mul (fun e : Fin E => (I (ix2 e (0 : Fin 1))).toInt = (p.val : ℤ))
      (fun e => T (ix2 (gatherRow J hN e) q')) (d (ix1 p)) hd.1 hd.2).trans ?_
    refine Finset.sum_congr rfl fun e _ => ?_
    by_cases h : (I (ix2 e (0 : Fin 1))).toInt = (p.val : ℤ)
    · rw [if_pos h, if_pos h, hT, hJ' e h, mul_assoc]
    · rw [if_neg h, if_neg h]
  rw [hsum, hb]

end Cert.LibConvLayer

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«160101_j19774029431674_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.BridgeLayers.lean ====
/-
  The idealized kernel and the idealized reference compute one array.

  Write `h = X · W` for a layer's dense product, `g e` for the row the wrapped source of edge `e` gathers, `d` for
  `dinv`, and let `e` range over the edges whose destination is the node `p`. The reference's layer is
  `max (Σ_e h (g e, q) * (d (g e) * d (dst e)) + b q, 0)`, and `d (dst e) = d p` on those edges. The kernel's region
  stores the table `h (r, q) * d r`, and its host arithmetic gives `max ((Σ_e table (g e, q)) * d p + b q, 0)`. They are
  equal because `d p` is a non-negative real, by which multiplication distributes over a sum of extended reals, and
  multiplication is associative. Layer 2 of the kernel works 128 columns wide on weights and bias padded with zero
  columns and keeps the first 64 columns: at a column below 64 the padded arrays are the unpadded ones.
-/
import proofs.«160101_j19774029431674_2_alg».proof.Proof.BridgeFacts
import proofs.«160101_j19774029431674_2_alg».proof.Proof.LibConvLayer
import proofs.«160101_j19774029431674_2_alg».proof.Proof.LibHostDot
import Idealize.ShloMosaic.Lib.Pipeline.Value
import Idealize.ShloMosaic.Lib.KernelVsHost

set_option maxRecDepth 16384

noncomputable section

open scoped BigOperators

namespace Cert.Bridge

open Cert.KernelIdeal Cert.KernelIdeal.Gen Cert.KernelIdeal.Fold
open Cert.ReferenceIdeal.RefValue (agg1 agg2 dense1 dense2)
open Idealize.ShloMosaic Idealize.ShloMosaic.ValueIdx

/-! ## Small reads -/

/-- The column form of `dinv` reads `dinv`. -/
theorem colOf_apply (d : FVec Ideal S50000 .f32) (r : Fin 50000) : colOf (F := Ideal) d (ix2 r (0 : Fin 1)) = d (ix1 r) :=
  Cert.LibColumn.bcastInDim_a_a1_apply d bcast_S50000_S50000x1_0 r 0

/-- The first dense product at an entry. -/
theorem dense1_apply (X : FVec Ideal S50000x128 .f32) (W : FVec Ideal S128x256 .f32) (r : Fin 50000) (k : Fin 256) :
    dense1 (F := Ideal) X W (ix2 r k) = ∑ j : Fin 128, X (ix2 r j) * W (ix2 j k) :=
  Cert.LibHostDot.hostDot_apply (R := 50000) (K := 128) (C := 256) (by decide) none X W r k

/-- The second dense product at an entry. -/
theorem dense2_apply (Y : FVec Ideal S50000x256 .f32) (W : FVec Ideal S256x64 .f32) (r : Fin 50000) (q : Fin 64) :
    dense2 (F := Ideal) Y W (ix2 r q) = ∑ j : Fin 256, Y (ix2 r j) * W (ix2 j q) :=
  Cert.LibHostDot.hostDot_apply (R := 50000) (K := 256) (C := 64) (by decide) none Y W r q

/-- Below column 64 the padded weights are the weights. -/
theorem padW_apply (W : FVec Ideal S256x64 .f32) (j : Fin 256) (q : Fin 64) (hq : q.val < 128) :
    padW (F := Ideal) W (ix2 j (⟨q.val, hq⟩ : Fin 128)) = W (ix2 j q) := by
  unfold padW
  refine pad_apply_of_inside _ _ _ W _ pads_S256x64_S256x128_000_0640 h_S_ (ix2 j (⟨q.val, hq⟩ : Fin 128)) (ix2 j q) fun a => ?_
  match a with
  | ⟨0, _⟩ => show j.val = 0 + j.val * (0 + 1); omega
  | ⟨1, _⟩ => show q.val = 0 + q.val * (0 + 1); omega

/-- Below entry 64 the padded bias is the bias. -/
theorem padB_apply (b : FVec Ideal S64 .f32) (q : Fin 64) (hq : q.val < 128) :
    padB (F := Ideal) b (ix1 (⟨q.val, hq⟩ : Fin 128)) = b (ix1 q) := by
  unfold padB
  refine pad_apply_of_inside _ _ _ b _ pads_S64_S128_0640 h_S_ (ix1 (⟨q.val, hq⟩ : Fin 128)) (ix1 q) fun a => ?_
  match a with
  | ⟨0, _⟩ => show q.val = 0 + q.val * (0 + 1); omega

/-! ## Layer 1 -/

/-- Over a table `T (r, k) = (X · W) (r, k) * dinv r` the kernel's layer 1 is the reference's. -/
theorem layer1_eq (T : FVec Ideal S50000x256 .bf16) (X : FVec Ideal S50000x128 .f32) (W : FVec Ideal S128x256 .f32)
    (S D : IVec S850000 32) (b : FVec Ideal S256 .f32)
    (hT : ∀ (r : Fin 50000) (k : Fin 256),
      T (ix2 r k) = (∑ j : Fin 128, X (ix2 r j) * W (ix2 j k)) * dinvOf (F := Ideal) D (ix1 r)) :
    layer1 (F := Ideal) T S D (dinvOf D) b = agg1 (F := Ideal) (dense1 X W) S D (dinvOf D) b := by
  funext i
  obtain ⟨p, k, rfl⟩ : ∃ (p : Fin 50000) (k : Fin 256), i = ix2 p k := ⟨i 0, i 1, eq_ix2 i⟩
  unfold layer1 agg1
  simp only [ref_wrapOf]
  have h := Cert.LibConvLayer.conv_layer_eq (N := 50000) (E := 850000) (C := 256) (C' := 256) (w := 32) (by decide)
    Cert.KernelIdeal.Gen.scatter_S50000x256_S850000x1_S850000x256_1_0_0_1_wf Cert.ReferenceIdeal.Gen.scatter_S50000x256_S850000x1_S850000x256_1_0_0_1_wf
    Cert.KernelIdeal.Gen.gather_S50000x256_S850000x1_S850000x256_1_0_n_n_0_1_1256_wf Cert.ReferenceIdeal.Gen.gather_S50000x256_S850000x1_S850000x256_1_0_n_n_0_1_1256_wf
    Cert.ReferenceIdeal.Gen.gather_S50000_S850000x1_S850000_n_0_n_n_0_1_1_wf
    bcast_S_S50000x256 Cert.ReferenceIdeal.Gen.bcast_S_S50000x256 bcast_S50000_S50000x1_0 bcast_S50000x1_S50000x256_0_1
    Cert.ReferenceIdeal.Gen.bcast_S850000_S850000x1_0 Cert.ReferenceIdeal.Gen.bcast_S850000x1_S850000x256_0_1
    bcast_S256_S1x256_1 bcast_S1x256_S50000x256_0_1 Cert.ReferenceIdeal.Gen.bcast_S256_S1x256_1 Cert.ReferenceIdeal.Gen.bcast_S1x256_S50000x256_0_1
    bitsLt_bf16_f32
    (broadcastInDim S850000x1 ![0] bcast_S850000_S850000x1_0 D) (wrapOf (F := Ideal) S) (wrapOf (F := Ideal) D)
    T (dense1 (F := Ideal) X W) (dinvOf (F := Ideal) D) b b p k k
    (fun r => (hT r k).trans (congrArg (· * dinvOf (F := Ideal) D (ix1 r)) (dense1_apply X W r k).symm))
    rfl (dinv_range D p) (fun e he => wrap_row D e p he)
  exact h

/-! ## Layer 2 and the cut back to 64 columns -/

/-- Over a table whose column `q < 64` is `(Y · W) (r, q) * dinv r`, entry `(p, q)` of the kernel's cut-back layer 2
    is the reference's layer 2 there. -/
theorem layer2_eq (T : FVec Ideal S50000x128 .bf16) (Y : FVec Ideal S50000x256 .f32) (W : FVec Ideal S256x64 .f32)
    (S D : IVec S850000 32) (b : FVec Ideal S64 .f32) (p : Fin 50000) (q : Fin 64) (hq : q.val < 128)
    (hT : ∀ r : Fin 50000,
      T (ix2 r (⟨q.val, hq⟩ : Fin 128)) = (∑ j : Fin 256, Y (ix2 r j) * W (ix2 j q)) * dinvOf (F := Ideal) D (ix1 r)) :
    firstCols (F := Ideal) (layer2 T S D (dinvOf D) (padB b)) (ix2 p q) = agg2 (F := Ideal) (dense2 Y W) S D (dinvOf D) b (ix2 p q) := by
  unfold firstCols
  refine (extractStridedSlice_apply _ _ slices_S50000x128_S50000x64_0_0 (ix2 p q) (ix2 p (⟨q.val, hq⟩ : Fin 128)) fun a => ?_).trans ?_
  · match a with
    | ⟨0, _⟩ => show p.val = 0 + p.val; omega
    | ⟨1, _⟩ => show q.val = 0 + q.val; omega
  unfold layer2 agg2
  simp only [ref_wrapOf]
  have h := Cert.LibConvLayer.conv_layer_eq (N := 50000) (E := 850000) (C := 128) (C' := 64) (w := 32) (by decide)
    Cert.KernelIdeal.Gen.scatter_S50000x128_S850000x1_S850000x128_1_0_0_1_wf Cert.ReferenceIdeal.Gen.scatter_S50000x64_S850000x1_S850000x64_1_0_0_1_wf
    Cert.KernelIdeal.Gen.gather_S50000x128_S850000x1_S850000x128_1_0_n_n_0_1_1128_wf Cert.ReferenceIdeal.Gen.gather_S50000x64_S850000x1_S850000x64_1_0_n_n_0_1_164_wf
    Cert.ReferenceIdeal.Gen.gather_S50000_S850000x1_S850000_n_0_n_n_0_1_1_wf
    bcast_S_S50000x128 Cert.ReferenceIdeal.Gen.bcast_S_S50000x64 bcast_S50000_S50000x1_0 bcast_S50000x1_S50000x128_0_1
    Cert.ReferenceIdeal.Gen.bcast_S850000_S850000x1_0 Cert.ReferenceIdeal.Gen.bcast_S850000x1_S850000x64_0_1
    bcast_S128_S1x128_1 bcast_S1x128_S50000x128_0_1 Cert.ReferenceIdeal.Gen.bcast_S64_S1x64_1 Cert.ReferenceIdeal.Gen.bcast_S1x64_S50000x64_0_1
    bitsLt_bf16_f32
    (broadcastInDim S850000x1 ![0] bcast_S850000_S850000x1_0 D) (wrapOf (F := Ideal) S) (wrapOf (F := Ideal) D)
    T (dense2 (F := Ideal) Y W) (dinvOf (F := Ideal) D) (padB (F := Ideal) b) b p (⟨q.val, hq⟩ : Fin 128) q
    (fun r => (hT r).trans (congrArg (· * dinvOf (F := Ideal) D (ix1 r)) (dense2_apply Y W r q).symm))
    (padB_apply b q hq) (dinv_range D p) (fun e he => wrap_row D e p he)
  exact h

end Cert.Bridge

end
-- ==== Proof.Region0Value.lean ====
/-
  What region 0 writes: a scaled matrix product, as a function of the arrays the region finds.

  The region's body loads a block of 5000 rows of `A : [50000, 128]`, the whole of `W : [128, 256]` and the
  matching 5000 entries of the column `s : [50000, 1]`, and stores `(x · w) * s` (the product's row `r` scaled by
  entry `r` of the column).  On the extended reals a change of float format is the identity and the product into a
  zero accumulator is the plain sum of products, so the stored block at `(r, q)` is
  `(∑ k, x (r, k) * w (k, q)) * s (r, 0)`.  Grid point `t` of the ten reads rows `5000 t … 5000 t + 4999` and
  writes the same rows of the result; the ten blocks tile the `[50000, 256]` result, so after the region the result
  array at `(p, q)` is `(∑ k, A (p, k) * W (k, q)) * s (p, 0)`.
-/
import proofs.«160101_j19774029431674_2_alg».proof.Proof.Gen.KernelIdeal.Frame
import proofs.«160101_j19774029431674_2_alg».proof.Proof.LibPlainDot
import proofs.«160101_j19774029431674_2_alg».proof.Proof.LibColumn
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The stored block at an index -/

/-- The printed dimension numbers of the region's product are those of a plain `[5000, 128] × [128, 256]` product. -/
theorem dot0_eq : dot_S5000x128_S128x256_S5000x256_1_0_0_1_n_n
    = Cert.LibPlainDot.plainDot 5000 128 256 Facts₀.dot_S5000x128_S128x256_S5000x256_1_0_0_1_n_n_wf := rfl

/-- THE STORED BLOCK AT `(r, q)`: row `r` of the loaded rows times column `q` of the weight, scaled by entry `r`
    of the loaded column. -/
theorem payload0_apply (x0 : FVec Ideal S5000x128 .f32) (x1 : FVec Ideal S128x256 .f32) (x2 : FVec Ideal S5000x1 .f32)
    (r : Fin 5000) (q : Fin 256) :
    Gen.k0_pay1 (F := Ideal) x0 x1 x2 (ix2 r q)
      = (∑ k : Fin 128, x0 (ix2 r k) * x1 (ix2 k q)) * x2 (ix2 r (0 : Fin 1)) := by
  unfold Gen.k0_pay1
  show (FloatOps.matmul (F := Ideal) dot_S5000x128_S128x256_S5000x256_1_0_0_1_n_n none (truncf (F := Ideal) .bf16 x0 bitsLt_bf16_f32)
          (truncf (F := Ideal) .bf16 x1 bitsLt_bf16_f32) (constant (F := Ideal) S5000x256 .f32 0x00000000#32) (ix2 r q))
      * (broadcastTo S5000x256 (shapeCast S5000x1 x2 shapeCasts_S5000x1_S5000x1) broadcasts_S5000x1_S5000x256 (ix2 r q)) = _
  rw [shapeCast_self, Cert.LibColumn.broadcastTo_a1_ab_apply, dot0_eq, Cert.LibPlainDot.matmul_zero_apply]
  rfl

/-! ## The whole result array -/

/-- The rows of `A` times `W`, row `p` scaled by entry `p` of the column `s`. -/
def scaledProduct0 (A : S50000x128.Idx → EReal) (W : S128x256.Idx → EReal) (s : S50000x1.Idx → EReal) :
    S50000x256.Idx → EReal :=
  fun i => (∑ k : Fin 128, A (ix2 (i 0 : Fin 50000) k) * W (ix2 k (i 1 : Fin 256))) * s (ix2 (i 0 : Fin 50000) (0 : Fin 1))

theorem hz : (![0, 0] : Fin 2 → Nat) = fun _ => 0 := funext fun a => by fin_cases a <;> rfl

/-- The block index maps, decided over the ten grid points: the rows, the column and the result move down one
    block of rows per point; the weight stays. -/
theorem index_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the scaled product of the arrays as the region finds them. -/
theorem flushed0_eq (c : Dev nD) (t : Fin cfg0.N) :
    (Gen.dat0 (F := Ideal) V c).flushed 3 t
      = ((cfg0.win 3).blk t).view.read (Elt Ideal)
          (scaledProduct0 (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.out0_3
  rw [View.canon_unit_zero hz]
  simp only [View.ld_unit_zero (S := S5000x128) hz, View.ld_unit_zero (S := S128x256) hz, View.ld_unit_zero (S := S5000x1) hz]
  obtain ⟨a0, a1, b0, b1, c0, c1, d0, d1⟩ := index_facts0 t
  have hN : grid0.N = 10 := Gen.N_0
  have ht : t.val < 10 := by have h : t.val < grid0.N := t.isLt; omega
  funext j
  obtain ⟨r, q, rfl⟩ : ∃ (r : Fin 5000) (q : Fin 256), j = ix2 r q := ⟨j 0, j 1, eq_ix2 j⟩
  have hrow : t.val * 5000 + r.val < 50000 := by have := r.isLt; omega
  show Gen.k0_pay1 (F := Ideal) (Gen.iblk0 V c 0 t) (Gen.iblk0 V c 1 t) (Gen.iblk0 V c 2 t) (ix2 r q)
    = scaledProduct0 (V c (Pipeline.arrRef spec0 0)) (V c (Pipeline.arrRef spec0 1)) (V c (Pipeline.arrRef spec0 2))
        (((cfg0.win 3).blk t).view.emb (ix2 r q))
  refine (payload0_apply (Gen.iblk0 V c 0 t) (Gen.iblk0 V c 1 t) (Gen.iblk0 V c 2 t) r q).trans ?_
  -- the element of the result that the block's `(r, q)` is
  have e3 : ((cfg0.win 3).blk t).view.emb (ix2 r q) = ix2 (⟨t.val * 5000 + r.val, hrow⟩ : Fin 50000) q := by
    funext a; apply Fin.ext
    match a with
    | ⟨0, _⟩ => show win0_3.index t (0 : Fin 2) * 5000 + 1 * r.val = t.val * 5000 + r.val; rw [d0]; omega
    | ⟨1, _⟩ => show win0_3.index t (1 : Fin 2) * 256 + 1 * q.val = q.val; rw [d1]; omega
  rw [e3]
  -- each loaded block read where that element's row says
  have h0 : ∀ k : Fin 128, Gen.iblk0 V c 0 t (ix2 r k)
      = V c (Pipeline.arrRef spec0 0) (ix2 (⟨t.val * 5000 + r.val, hrow⟩ : Fin 50000) k) := fun k => by
    show V c (Pipeline.arrRef spec0 0) (((cfg0.win 0).blk t).view.emb (ix2 r k)) = _
    refine congrArg _ (funext fun a => Fin.ext ?_)
    match a with
    | ⟨0, _⟩ => show win0_0.index t (0 : Fin 2) * 5000 + 1 * r.val = t.val * 5000 + r.val; rw [a0]; omega
    | ⟨1, _⟩ => show win0_0.index t (1 : Fin 2) * 128 + 1 * k.val = k.val; rw [a1]; omega
  have h1 : ∀ k : Fin 128, Gen.iblk0 V c 1 t (ix2 k q) = V c (Pipeline.arrRef spec0 1) (ix2 k q) := fun k => by
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; rw [b0]; omega
    | ⟨1, _⟩ => show win0_1.index t (1 : Fin 2) * 256 + 1 * q.val = q.val; rw [b1]; omega
  have h2 : Gen.iblk0 V c 2 t (ix2 r (0 : Fin 1))
      = V c (Pipeline.arrRef spec0 2) (ix2 (⟨t.val * 5000 + r.val, hrow⟩ : Fin 50000) (0 : Fin 1)) := by
    show V c (Pipeline.arrRef spec0 2) (((cfg0.win 2).blk t).view.emb (ix2 r (0 : Fin 1))) = _
    refine congrArg _ (funext fun a => Fin.ext ?_)
    match a with
    | ⟨0, _⟩ => show win0_2.index t (0 : Fin 2) * 5000 + 1 * r.val = t.val * 5000 + r.val; rw [c0]; omega
    | ⟨1, _⟩ => show win0_2.index t (1 : Fin 2) * 1 + 1 * 0 = 0; rw [c1]
  exact congrArg₂ (· * ·) (Finset.sum_congr rfl fun k _ => congrArg₂ (· * ·) (h0 k) (h1 k)) h2

/-- An index of the result is in point `t`'s block iff each coordinate is in the block's range on its axis. -/
theorem mem_block0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v18).slice (win0_3.rect t)).set ↔ _
  rw [View.set_slice_whole, Rect.mem_set_unit]
  exact Iff.rfl

/-- Every index of the result is in some point's block: row `p` in that of point `p / 5000`. -/
theorem cover0 (i : S50000x256.Idx) : ∃ t : Fin cfg0.N, (cfg0.win 3).flush t = true ∧ i ∈ ((cfg0.win 3).blk t).view.set := by
  have hN : grid0.N = 10 := Gen.N_0
  have hi0 : (i 0).val < 50000 := (i 0).isLt
  have hi1 : (i 1).val < 256 := (i 1).isLt
  refine ⟨⟨(i 0).val / 5000, by show _ < grid0.N; omega⟩, flush0_3 _, ?_⟩
  rw [mem_block0]
  obtain ⟨-, -, -, -, -, -, e0, e1⟩ := index_facts0 ⟨(i 0).val / 5000, by show _ < grid0.N; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ _ ∧ _ < (i 0).val / 5000 * 5000 + 5000; omega
  | ⟨1, _⟩ => show win0_3.index _ (1 : Fin 2) * 256 ≤ (i 1).val ∧ (i 1).val < win0_3.index _ (1 : Fin 2) * 256 + 256; rw [e1]; omega

/-- THE RESULT ARRAY after the region is the scaled product of the arrays the region finds. -/
theorem region0_array (c : Dev nD) :
    (Gen.dat0 (F := Ideal) V c).arrAt 3 cfg0.N
      = scaledProduct0 (V c (Pipeline.arrRef spec0 0)) (V c (Pipeline.arrRef spec0 1)) (V c (Pipeline.arrRef spec0 2)) :=
  (Gen.dat0 (F := Ideal) V c).arrAt_eq_of_cover 3 _ (fun t _ => flushed0_eq V c t) cover0

/-- The scaled product read at `(p, q)`. -/
theorem scaledProduct0_apply (A : S50000x128.Idx → EReal) (W : S128x256.Idx → EReal) (s : S50000x1.Idx → EReal)
    (p : Fin 50000) (q : Fin 256) :
    scaledProduct0 A W s (ix2 p q) = (∑ k : Fin 128, A (ix2 p k) * W (ix2 k q)) * s (ix2 p (0 : Fin 1)) := rfl

/-- THE RESULT AT `(p, q)`: row `p` of the first array times column `q` of the second, scaled by entry `p` of the
    column array — the three arrays `A`, `W`, `s` being what the region finds in its three input windows' arrays. -/
theorem region0_value (c : Dev nD) (p : Fin 50000) (q : Fin 256)
    (A : S50000x128.Idx → EReal) (W : S128x256.Idx → EReal) (s : S50000x1.Idx → EReal)
    (hA : V c (Pipeline.arrRef spec0 0) = A) (hW : V c (Pipeline.arrRef spec0 1) = W)
    (hs : V c (Pipeline.arrRef spec0 2) = s) :
    (Gen.dat0 (F := Ideal) V c).arrAt 3 cfg0.N (ix2 p q)
      = (∑ k : Fin 128, A (ix2 p k) * W (ix2 k q)) * s (ix2 p (0 : Fin 1)) := by
  subst hA hW hs
  rw [region0_array V c]
  rfl

end Cert.KernelIdeal.RegionValue

end
-- ==== Proof.Region1Value.lean ====
/-
  What region 1 writes: a scaled matrix product, as a function of the arrays the region finds.

  The region's body loads a block of 5000 rows of `A : [50000, 256]`, the whole of `W : [256, 128]` and the
  matching 5000 entries of the column `s : [50000, 1]`, and stores `(x · w) * s` (the product's row `r` scaled by
  entry `r` of the column).  On the extended reals a change of float format is the identity and the product into a
  zero accumulator is the plain sum of products, so the stored block at `(r, q)` is
  `(∑ k, x (r, k) * w (k, q)) * s (r, 0)`.  Grid point `t` of the ten reads rows `5000 t … 5000 t + 4999` and
  writes the same rows of the result; the ten blocks tile the `[50000, 128]` result, so after the region the result
  array at `(p, q)` is `(∑ k, A (p, k) * W (k, q)) * s (p, 0)`.
-/
import proofs.«160101_j19774029431674_2_alg».proof.Proof.Gen.KernelIdeal.Frame
import proofs.«160101_j19774029431674_2_alg».proof.Proof.LibPlainDot
import proofs.«160101_j19774029431674_2_alg».proof.Proof.LibColumn
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The stored block at an index -/

/-- The printed dimension numbers of the region's product are those of a plain `[5000, 256] × [256, 128]` product. -/
theorem dot1_eq : dot_S5000x256_S256x128_S5000x128_1_0_0_1_n_n
    = Cert.LibPlainDot.plainDot 5000 256 128 Facts₀.dot_S5000x256_S256x128_S5000x128_1_0_0_1_n_n_wf := rfl

/-- THE STORED BLOCK AT `(r, q)`: row `r` of the loaded rows times column `q` of the weight, scaled by entry `r`
    of the loaded column. -/
theorem payload1_apply (x0 : FVec Ideal S5000x256 .f32) (x1 : FVec Ideal S256x128 .f32) (x2 : FVec Ideal S5000x1 .f32)
    (r : Fin 5000) (q : Fin 128) :
    Gen.k1_pay1 (F := Ideal) x0 x1 x2 (ix2 r q)
      = (∑ k : Fin 256, x0 (ix2 r k) * x1 (ix2 k q)) * x2 (ix2 r (0 : Fin 1)) := by
  unfold Gen.k1_pay1
  show (FloatOps.matmul (F := Ideal) dot_S5000x256_S256x128_S5000x128_1_0_0_1_n_n none (truncf (F := Ideal) .bf16 (shapeCast S5000x256 x0 shapeCasts_S5000x256_S5000x256) bitsLt_bf16_f32)
          (truncf (F := Ideal) .bf16 (shapeCast S256x128 x1 shapeCasts_S256x128_S256x128) bitsLt_bf16_f32) (constant (F := Ideal) S5000x128 .f32 0x00000000#32) (ix2 r q))
      * (broadcastTo S5000x128 (shapeCast S5000x1 x2 shapeCasts_S5000x1_S5000x1) broadcasts_S5000x1_S5000x128 (ix2 r q)) = _
  simp only [shapeCast_self]
  rw [Cert.LibColumn.broadcastTo_a1_ab_apply, dot1_eq, Cert.LibPlainDot.matmul_zero_apply]
  rfl

/-! ## The whole result array -/

/-- The rows of `A` times `W`, row `p` scaled by entry `p` of the column `s`. -/
def scaledProduct1 (A : S50000x256.Idx → EReal) (W : S256x128.Idx → EReal) (s : S50000x1.Idx → EReal) :
    S50000x128.Idx → EReal :=
  fun i => (∑ k : Fin 256, A (ix2 (i 0 : Fin 50000) k) * W (ix2 k (i 1 : Fin 128))) * s (ix2 (i 0 : Fin 50000) (0 : Fin 1))

theorem hz1 : (![0, 0] : Fin 2 → Nat) = fun _ => 0 := funext fun a => by fin_cases a <;> rfl

/-- The block index maps, decided over the ten grid points: the rows, the column and the result move down one
    block of rows per point; the weight stays. -/
theorem index_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the scaled product of the arrays as the region finds them. -/
theorem flushed1_eq (c : Dev nD) (t : Fin cfg1.N) :
    (Gen.dat1 (F := Ideal) V c).flushed 3 t
      = ((cfg1.win 3).blk t).view.read (Elt Ideal)
          (scaledProduct1 (V c (Pipeline.arrRef spec1 0)) (V c (Pipeline.arrRef spec1 1)) (V c (Pipeline.arrRef spec1 2))) := by
  show (cfg1.win 3).cut (grid1.coords t) ((Gen.dat1 (F := Ideal) V c).after 3 t) = _
  rw [Gen.after1_3]
  unfold Gen.out1_3
  rw [View.canon_unit_zero hz1]
  simp only [View.ld_unit_zero (S := S5000x256) hz1, View.ld_unit_zero (S := S256x128) hz1, View.ld_unit_zero (S := S5000x1) hz1]
  obtain ⟨a0, a1, b0, b1, c0, c1, d0, d1⟩ := index_facts1 t
  have hN : grid1.N = 10 := Gen.N_1
  have ht : t.val < 10 := by have h : t.val < grid1.N := t.isLt; omega
  funext j
  obtain ⟨r, q, rfl⟩ : ∃ (r : Fin 5000) (q : Fin 128), j = ix2 r q := ⟨j 0, j 1, eq_ix2 j⟩
  have hrow : t.val * 5000 + r.val < 50000 := by have := r.isLt; omega
  show Gen.k1_pay1 (F := Ideal) (Gen.iblk1 V c 0 t) (Gen.iblk1 V c 1 t) (Gen.iblk1 V c 2 t) (ix2 r q)
    = scaledProduct1 (V c (Pipeline.arrRef spec1 0)) (V c (Pipeline.arrRef spec1 1)) (V c (Pipeline.arrRef spec1 2))
        (((cfg1.win 3).blk t).view.emb (ix2 r q))
  refine (payload1_apply (Gen.iblk1 V c 0 t) (Gen.iblk1 V c 1 t) (Gen.iblk1 V c 2 t) r q).trans ?_
  -- the element of the result that the block's `(r, q)` is
  have e3 : ((cfg1.win 3).blk t).view.emb (ix2 r q) = ix2 (⟨t.val * 5000 + r.val, hrow⟩ : Fin 50000) q := by
    funext a; apply Fin.ext
    match a with
    | ⟨0, _⟩ => show win1_3.index t (0 : Fin 2) * 5000 + 1 * r.val = t.val * 5000 + r.val; rw [d0]; omega
    | ⟨1, _⟩ => show win1_3.index t (1 : Fin 2) * 128 + 1 * q.val = q.val; rw [d1]; omega
  rw [e3]
  -- each loaded block read where that element's row says
  have h0 : ∀ k : Fin 256, Gen.iblk1 V c 0 t (ix2 r k)
      = V c (Pipeline.arrRef spec1 0) (ix2 (⟨t.val * 5000 + r.val, hrow⟩ : Fin 50000) k) := fun k => by
    show V c (Pipeline.arrRef spec1 0) (((cfg1.win 0).blk t).view.emb (ix2 r k)) = _
    refine congrArg _ (funext fun a => Fin.ext ?_)
    match a with
    | ⟨0, _⟩ => show win1_0.index t (0 : Fin 2) * 5000 + 1 * r.val = t.val * 5000 + r.val; rw [a0]; omega
    | ⟨1, _⟩ => show win1_0.index t (1 : Fin 2) * 256 + 1 * k.val = k.val; rw [a1]; omega
  have h1 : ∀ k : Fin 256, Gen.iblk1 V c 1 t (ix2 k q) = V c (Pipeline.arrRef spec1 1) (ix2 k q) := fun k => by
    show V c (Pipeline.arrRef spec1 1) (((cfg1.win 1).blk t).view.emb (ix2 k q)) = _
    refine congrArg _ (funext fun a => Fin.ext ?_)
    match a with
    | ⟨0, _⟩ => show win1_1.index t (0 : Fin 2) * 256 + 1 * k.val = k.val; rw [b0]; omega
    | ⟨1, _⟩ => show win1_1.index t (1 : Fin 2) * 128 + 1 * q.val = q.val; rw [b1]; omega
  have h2 : Gen.iblk1 V c 2 t (ix2 r (0 : Fin 1))
      = V c (Pipeline.arrRef spec1 2) (ix2 (⟨t.val * 5000 + r.val, hrow⟩ : Fin 50000) (0 : Fin 1)) := by
    show V c (Pipeline.arrRef spec1 2) (((cfg1.win 2).blk t).view.emb (ix2 r (0 : Fin 1))) = _
    refine congrArg _ (funext fun a => Fin.ext ?_)
    match a with
    | ⟨0, _⟩ => show win1_2.index t (0 : Fin 2) * 5000 + 1 * r.val = t.val * 5000 + r.val; rw [c0]; omega
    | ⟨1, _⟩ => show win1_2.index t (1 : Fin 2) * 1 + 1 * 0 = 0; rw [c1]
  exact congrArg₂ (· * ·) (Finset.sum_congr rfl fun k _ => congrArg₂ (· * ·) (h0 k) (h1 k)) h2

/-- An index of the result is in point `t`'s block iff each coordinate is in the block's range on its axis. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v39).slice (win1_3.rect t)).set ↔ _
  rw [View.set_slice_whole, Rect.mem_set_unit]
  exact Iff.rfl

/-- Every index of the result is in some point's block: row `p` in that of point `p / 5000`. -/
theorem cover1 (i : S50000x128.Idx) : ∃ t : Fin cfg1.N, (cfg1.win 3).flush t = true ∧ i ∈ ((cfg1.win 3).blk t).view.set := by
  have hN : grid1.N = 10 := Gen.N_1
  have hi0 : (i 0).val < 50000 := (i 0).isLt
  have hi1 : (i 1).val < 128 := (i 1).isLt
  refine ⟨⟨(i 0).val / 5000, by show _ < grid1.N; omega⟩, flush1_3 _, ?_⟩
  rw [mem_block1]
  obtain ⟨-, -, -, -, -, -, e0, e1⟩ := index_facts1 ⟨(i 0).val / 5000, by show _ < grid1.N; omega⟩
  intro a
  match a with
  | ⟨0, _⟩ => show win1_3.index _ (0 : Fin 2) * 5000 ≤ (i 0).val ∧ (i 0).val < win1_3.index _ (0 : Fin 2) * 5000 + 5000; rw [e0]; show (i 0).val / 5000 * 5000 ≤ _ ∧ _ < (i 0).val / 5000 * 5000 + 5000; omega
  | ⟨1, _⟩ => show win1_3.index _ (1 : Fin 2) * 128 ≤ (i 1).val ∧ (i 1).val < win1_3.index _ (1 : Fin 2) * 128 + 128; rw [e1]; omega

/-- THE RESULT ARRAY after the region is the scaled product of the arrays the region finds. -/
theorem region1_array (c : Dev nD) :
    (Gen.dat1 (F := Ideal) V c).arrAt 3 cfg1.N
      = scaledProduct1 (V c (Pipeline.arrRef spec1 0)) (V c (Pipeline.arrRef spec1 1)) (V c (Pipeline.arrRef spec1 2)) :=
  (Gen.dat1 (F := Ideal) V c).arrAt_eq_of_cover 3 _ (fun t _ => flushed1_eq V c t) cover1

/-- The scaled product read at `(p, q)`. -/
theorem scaledProduct1_apply (A : S50000x256.Idx → EReal) (W : S256x128.Idx → EReal) (s : S50000x1.Idx → EReal)
    (p : Fin 50000) (q : Fin 128) :
    scaledProduct1 A W s (ix2 p q) = (∑ k : Fin 256, A (ix2 p k) * W (ix2 k q)) * s (ix2 p (0 : Fin 1)) := rfl

/-- THE RESULT AT `(p, q)`: row `p` of the first array times column `q` of the second, scaled by entry `p` of the
    column array — the three arrays `A`, `W`, `s` being what the region finds in its three input windows' arrays. -/
theorem region1_value (c : Dev nD) (p : Fin 50000) (q : Fin 128)
    (A : S50000x256.Idx → EReal) (W : S256x128.Idx → EReal) (s : S50000x1.Idx → EReal)
    (hA : V c (Pipeline.arrRef spec1 0) = A) (hW : V c (Pipeline.arrRef spec1 1) = W)
    (hs : V c (Pipeline.arrRef spec1 2) = s) :
    (Gen.dat1 (F := Ideal) V c).arrAt 3 cfg1.N (ix2 p q)
      = (∑ k : Fin 256, A (ix2 p k) * W (ix2 k q)) * s (ix2 p (0 : Fin 1)) := by
  subst hA hW hs
  rw [region1_array V c]
  rfl

end Cert.KernelIdeal.RegionValue

end
-- ==== Proof.Bridge.lean ====
/-
  The idealized kernel and the idealized reference end with one array.

  The reference's result is layer 2's aggregation of `relu-layer-1 · W2`; the kernel's is the first 64 columns of its
  layer 2 over the second region's table. The first region's table is `(x · W1) (r, k) * dinv r`, so the kernel's layer
  1 is the reference's; the second region read that layer, the padded weights and `dinv`, so below column 64 its table
  is `(layer1 · W2) (r, q) * dinv r`, and the kernel's cut-back layer 2 is the reference's.
-/
import proofs.«160101_j19774029431674_2_alg».proof.Proof.BridgeLayers
import proofs.«160101_j19774029431674_2_alg».proof.Proof.Region0Value
import proofs.«160101_j19774029431674_2_alg».proof.Proof.Region1Value

set_option maxRecDepth 16384

noncomputable section

open scoped BigOperators

namespace Cert.Bridge

open Cert.KernelIdeal Cert.KernelIdeal.Gen Cert.KernelIdeal.Fold
open Cert.ReferenceIdeal.RefValue (agg1 agg2 dense1 dense2)
open Idealize.ShloMosaic Idealize.ShloMosaic.ValueIdx

/-- With the two regions' tables given by their entries — the first over the features and the first weights, the
    second over the kernel's layer 1 and the padded second weights, both scaled by the column `dinv` — the
    reference's two layers are the kernel's, cut back to 64 columns. -/
theorem value_core (X : FVec Ideal S50000x128 .f32) (E : IVec S2x800000 32) (W1 : FVec Ideal S128x256 .f32) (b1 : FVec Ideal S256 .f32)
    (W2 : FVec Ideal S256x64 .f32) (b2 : FVec Ideal S64 .f32) (T1 : FVec Ideal S50000x256 .bf16) (T2 : FVec Ideal S50000x128 .bf16)
    (hT1 : ∀ (r : Fin 50000) (k : Fin 256), T1 (ix2 r k)
        = (∑ j : Fin 128, X (ix2 r j) * W1 (ix2 j k)) * colOf (F := Ideal) (dinvOf (dstOf E)) (ix2 r (0 : Fin 1)))
    (hT2 : ∀ (Y : FVec Ideal S50000x256 .f32), layer1 (F := Ideal) T1 (srcOf E) (dstOf E) (dinvOf (dstOf E)) b1 = Y →
        ∀ (r : Fin 50000) (q : Fin 128), T2 (ix2 r q)
          = (∑ j : Fin 256, Y (ix2 r j) * padW (F := Ideal) W2 (ix2 j q)) * colOf (F := Ideal) (dinvOf (dstOf E)) (ix2 r (0 : Fin 1))) :
    agg2 (F := Ideal) (dense2 (agg1 (dense1 X W1) (srcOf E) (dstOf E) (dinvOf (dstOf E)) b1) W2) (srcOf E) (dstOf E) (dinvOf (dstOf E)) b2
      = firstCols (F := Ideal) (layer2 T2 (srcOf E) (dstOf E) (dinvOf (dstOf E)) (padB b2)) := by
  have hL1 := layer1_eq T1 X W1 (srcOf (F := Ideal) E) (dstOf (F := Ideal) E) b1
    (fun r k => (hT1 r k).trans (congrArg ((∑ j : Fin 128, X (ix2 r j) * W1 (ix2 j k)) * ·) (colOf_apply _ r)))
  funext i
  obtain ⟨p, q, rfl⟩ : ∃ (p : Fin 50000) (q : Fin 64), i = ix2 p q := ⟨i 0, i 1, eq_ix2 i⟩
  have hq : q.val < 128 := by have := q.isLt; omega
  refine (layer2_eq T2 _ W2 (srcOf (F := Ideal) E) (dstOf (F := Ideal) E) b2 p q hq fun r => ?_).symm
  refine (hT2 _ hL1 r ⟨q.val, hq⟩).trans ?_
  rw [colOf_apply]
  refine congrArg (· * dinvOf (F := Ideal) (dstOf E) (ix1 r)) (Finset.sum_congr rfl fun j _ => ?_)
  rw [padW_apply _ j q hq]

/-- From memories that agree on the six arguments, the reference's result is what the kernel's result buffer holds
    at its last boundary. -/
theorem value_eq (m : (ℓ : Loc nD τ sig) → Buf (Elt Ideal) ℓ) (ρ : Dev nD → PrngReg) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.ValueP.res_main_v67 (F := Ideal) m' c = W14 m ρ c (Proc.devRef .tc main_v58) := by
  rw [Cert.ReferenceIdeal.RefValue.res_eq, h0, h1, h2, h3, h4, h5, Fold.result_eq]
  have e1 := entry1 m ρ c
  have e2 := entry2 m ρ c
  exact value_core (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (table1 m ρ c) (table2 m ρ c)
    (fun r k => Cert.KernelIdeal.RegionValue.region0_value (V3 m ρ) c r k _ _ _ e1.1 e1.2.1 e1.2.2)
    (fun Y hY r q => Cert.KernelIdeal.RegionValue.region1_value (V10 m ρ) c r q _ _ _ (e2.1.trans hY) e2.2.1 e2.2.2)

end Cert.Bridge

end
-- ==== Proof.lean ====
/-
  A two-layer graph convolution: a Pallas kernel program against its plain reference, on the extended reals.

  Both programs append a self loop to every node, take `dinv` = 0 at degree 0 and the reciprocal square root of
  max(degree, 1) elsewhere, and compute twice `relu (A (h) + b)` with `h` a dense product and `A` the sum over the
  edges into a node of the source's row of `h` weighted by `dinv (source) * dinv (destination)`. The reference weighs
  each edge's row; the kernel multiplies row `r` of `h` by `dinv r` inside the region that computes the product,
  adds the gathered rows up unweighted, and multiplies the sum for node `p` by `dinv p`. As `dinv p` is a non-negative
  real, multiplication by it distributes over the sum of extended reals, so the two agree with no assumption on the
  inputs. The kernel pads layer 2 to 128 columns with zeros and keeps the first 64.

  The kernel's frames are the generated ones. Its value is read off the run of its fourteen segments (Proof/KernelRun,
  Proof/KernelFold), with each region's table from Proof/Region0Value and Proof/Region1Value; the reference's from
  its run (Proof/RefRun, Proof/RefValue); Proof/Bridge joins them. The idealization rewrote no operation, so the
  fourth conjunct is `True`.
-/
import proofs.«160101_j19774029431674_2_alg».proof.Defs
import proofs.«160101_j19774029431674_2_alg».proof.Proof.Gen.Kernel
import proofs.«160101_j19774029431674_2_alg».proof.Proof.Gen.Kernel.Frame
import proofs.«160101_j19774029431674_2_alg».proof.Proof.Gen.KernelIdeal
import proofs.«160101_j19774029431674_2_alg».proof.Proof.Gen.KernelIdeal.Frame
import proofs.«160101_j19774029431674_2_alg».proof.Proof.Gen.ReferenceIdeal
import proofs.«160101_j19774029431674_2_alg».proof.Proof.Gen.Pre_finite_inputs
import proofs.«160101_j19774029431674_2_alg».proof.Proof.KernelRun
import proofs.«160101_j19774029431674_2_alg».proof.Proof.RefRun
import proofs.«160101_j19774029431674_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with one result: the kernel's result buffer holds
    the contents of its last segment boundary, the reference's its composed term, and these are equal. -/
theorem algebraic : Cert.algebraic_KernelIdeal_ReferenceIdeal := by
  intro m ρ m' ρ' _ hagree
  refine ⟨fun c => Cert.KernelIdeal.Gen.W14 m ρ c (Proc.devRef .tc Cert.KernelIdeal.main_v58),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.value_eq m ρ c m' (hagree c).1 (hagree c).2.1 (hagree c).2.2.1 (hagree c).2.2.2.1
    (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
